-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  main_v88

def fn_part4 {F : FTy → Type} [FloatOps F] (main_arg15 : FVec F S128 .f32) (main_arg16 : FVec F S128x64 .f32) (main_arg17 : FVec F S64 .f32) (main_arg18 : FVec F S128x64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x64 .f32) (main_arg17 : FVec F S64 .f32) (main_arg18 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 95
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S128x64, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S50000, .f32⟩
  | .hbm, ⟨27, _⟩ => ⟨S600000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S50000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S_, .f32⟩
  | .hbm, ⟨88, _⟩ => ⟨S50000x128, .f32⟩
  | .hbm, ⟨89, _⟩ => ⟨S600000x1, .i32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x64, .f32⟩
  | .hbm, ⟨94, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S1x64, .f32⟩
  | .local _ .vmem, ⟨32, _⟩ => ⟨S128x64, .f32⟩
  | .local _ .vmem, ⟨33, _⟩ => ⟨S5000x64, .f32⟩
  | .local _ .vmem, ⟨34, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x64, .f32⟩
  | 17 => ⟨S64, .f32⟩
  | 18 => ⟨S128x64, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S_, .f32⟩
  | 37 => ⟨S600000, .f32⟩
  | 38 => ⟨S_, .f32⟩
  | 39 => ⟨S50000, .f32⟩
  | 40 => ⟨S600000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S128, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S_, .f32⟩
  | 81 => ⟨S50000x128, .f32⟩
  | 82 => ⟨S600000x1, .i32⟩
  | 83 => ⟨S50000x128, .f32⟩
  | 84 => ⟨S_, .f32⟩
  | 85 => ⟨S600000, .f32⟩
  | 86 => ⟨S_, .f32⟩
  | 87 => ⟨S50000, .f32⟩
  | 88 => ⟨S600000x1, .i32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S50000x128, .f32⟩
  | 101 => ⟨S50000x128, .f32⟩
  | 102 => ⟨S_, .f32⟩
  | 103 => ⟨S128, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S50000x128, .f32⟩

abbrev hbmTy0_1 (i : Nat) : BufTy := match i % 128 with
  | 0 => ⟨S_, .f32⟩
  | 1 => ⟨S50000x128, .f32⟩
  | 2 => ⟨S600000x1, .i32⟩
  | 3 => ⟨S50000x128, .f32⟩
  | 4 => ⟨S_, .f32⟩
  | 5 => ⟨S600000, .f32⟩
  | 6 => ⟨S_, .f32⟩
  | 7 => ⟨S50000, .f32⟩
  | 8 => ⟨S600000x1, .i32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x128, .f32⟩
  | 15 => ⟨S50000x128, .f32⟩
  | 16 => ⟨S50000x64, .f32⟩
  | 17 => ⟨S1x64, .f32⟩
  | 18 => ⟨S50000x64, .f32⟩
  | 19 => ⟨S50000x64, .f32⟩
  | 20 => ⟨S50000x64, .f32⟩
  | 21 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_cst : Ref sig .tc := ⟨.hbm, 68, rfl⟩
abbrev main_call0_v0 : Ref sig .tc := ⟨.hbm, 69, rfl⟩
abbrev main_v42 : Ref sig .tc := ⟨.hbm, 70, rfl⟩
abbrev main_c_5 : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call1_cst : Ref sig .tc := ⟨.hbm, 116, rfl⟩
abbrev main_call1_v0 : Ref sig .tc := ⟨.hbm, 117, rfl⟩
abbrev main_v81 : Ref sig .tc := ⟨.hbm, 118, rfl⟩
abbrev main_c_12 : Ref sig .tc := ⟨.hbm, 119, rfl⟩
abbrev main_v82 : Ref sig .tc := ⟨.hbm, 120, rfl⟩
abbrev main_v83 : Ref sig .tc := ⟨.hbm, 121, rfl⟩
abbrev main_c_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_14 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_15 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics of one graph-convolution layer, entry by entry, on the extended reals.

  A node's new feature q is a linear form of two rows: the row of the node's aggregated neighbour features and the
  node's own row, each contracted with a column of its weight matrix, plus a bias. The first two layers then
  normalise with per-column statistics (subtract the mean, scale by gamma / sqrt (var + eps), add beta) and clamp
  below at zero; the last layer is the linear form alone.
-/
import Idealize.ShloMosaic.PureOps.Ideal
import Idealize.ShloMosaic.Lib.ValueIdx

noncomputable section

namespace Cert.Sage

open Idealize.ShloMosaic Idealize.ShloMosaic.ValueIdx

/-- The small constant added to the variance, as the float word both programs carry. -/
def eps : EReal := Ideal.ofBits .f32 0x3727C5AC#32

/-- The zero both programs clamp at, as the float word both carry. -/
def zero : EReal := Ideal.ofBits .f32 0x00000000#32

/-- One entry of the linear form: (aggregated row) · (column of W_l) + (own row) · (column of W_r) + bias. -/
def lin (a x wl wr : Fin 128 → EReal) (b : EReal) : EReal :=
  ((∑ k : Fin 128, a k * wl k) + (∑ k : Fin 128, x k * wr k)) + b

/-- Normalisation by the column's statistics, then the clamp at zero. -/
def bnRelu (h γ β μ v : EReal) : EReal :=
  max ((h - μ) * (γ * Ideal.rsqrt (v + eps)) + β) zero

/-- A normalised layer over all 50000 nodes: entry (r, q) from row r of the two feature matrices. -/
def bnLayer (agg feat : FVec Ideal ⟨2, ![50000, 128]⟩ .f32) (Wl Wr : FVec Ideal ⟨2, ![128, 128]⟩ .f32)
    (b γ β μ v : Fin 128 → EReal) : FVec Ideal ⟨2, ![50000, 128]⟩ .f32 :=
  fun i => bnRelu (lin (fun k => agg (ix2 (i 0) k)) (fun k => feat (ix2 (i 0) k))
    (fun k => Wl (ix2 k (i 1))) (fun k => Wr (ix2 k (i 1))) (b (i 1))) (γ (i 1)) (β (i 1)) (μ (i 1)) (v (i 1))

/-- The last layer over all 50000 nodes: the linear form into 64 columns. -/
def plainLayer (agg feat : FVec Ideal ⟨2, ![50000, 128]⟩ .f32) (Wl Wr : FVec Ideal ⟨2, ![128, 64]⟩ .f32)
    (b : Fin 64 → EReal) : FVec Ideal ⟨2, ![50000, 64]⟩ .f32 :=
  fun i => lin (fun k => agg (ix2 (i 0) k)) (fun k => feat (ix2 (i 0) k))
    (fun k => Wl (ix2 k (i 1))) (fun k => Wr (ix2 k (i 1))) (b (i 1))

end Cert.Sage

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.LibScaleSum.lean ====
/-
  Three small facts about the extended reals as the ideal float values, for certificates where one side scales a
  matrix product's weights (or a whole sum) by a constant and the other scales afterwards, or where one side divides and
  the other multiplies by a reciprocal.

  * A nonnegative real factor moves inside a finite sum of extended reals — also when the sum meets ⊤ + ⊥, because a
    nonnegative real factor distributes over every sum of two extended reals.
  * The ideal division by a divisor that is not zero is the product with the inverse.
  * A value clamped below by one (a count, a norm with a floor) is not zero.
-/
import Idealize.ShloMosaic.PureOps.Ideal

noncomputable section

namespace Cert.Lib.ScaleSum

open Idealize.ShloMosaic

/-- A nonnegative real factor moves inside a finite sum of extended reals. -/
theorem coe_mul_sum {ι : Type} (s : Finset ι) (h : ℝ) (hh : 0 ≤ h) (f : ι → EReal) :
    (h : EReal) * ∑ k ∈ s, f k = ∑ k ∈ s, (h : EReal) * f k := by
  classical
  induction s using Finset.induction_on with
  | empty => simp
  | insert a s ha ih =>
    rw [Finset.sum_insert ha, Finset.sum_insert ha,
      EReal.left_distrib_of_nonneg_of_ne_top (by exact_mod_cast hh) (EReal.coe_ne_top h), ih]

/-- Off zero the ideal quotient is the product with the inverse. -/
theorem div_of_ne_zero (x a : EReal) (ha : a ≠ 0) : Ideal.div x a = x * a⁻¹ := by
  rw [Ideal.div, if_neg ha]

/-- A value clamped below by one is not zero. -/
theorem max_one_ne_zero (x : EReal) : max x 1 ≠ 0 :=
  ne_of_gt (lt_of_lt_of_le zero_lt_one (le_max_right x 1))

end Cert.Lib.ScaleSum

end
-- ==== Proof.HostLayers.lean ====
/-
  The host program's spelling of a layer, as whole arrays, is the layer of Spec.lean.

  The host multiplies the aggregated features and the node's own features by their weight matrices, adds the bias
  spread over the rows in between, and (first two layers) normalises with per-column statistics spread over the
  rows, then clamps at zero. Entry (r, q) of each product is a sum over the contracted coordinate, every spread
  quantity is read at the column q alone, and the two additions around the bias are regrouped by commutativity
  and associativity of addition on the extended reals — no finiteness is needed.

  Also here: dividing by a degree clamped below by one is multiplying by its reciprocal, entry by entry — the
  one difference between the two programs' ways of averaging over neighbours.
-/
import proofs.«172756_j52441550684206_1_alg».proof.Proof.Spec
import proofs.«172756_j52441550684206_1_alg».proof.Proof.LibContractPlain
import proofs.«172756_j52441550684206_1_alg».proof.Proof.LibRowInDim
import proofs.«172756_j52441550684206_1_alg».proof.Proof.LibColumnInDim
import proofs.«172756_j52441550684206_1_alg».proof.Proof.LibScaleSum
import Idealize.ShloMosaic.Lib.Pipeline.Value
import Idealize.ShloMosaic.Lib.ValueIdx
import Idealize.ShloMosaic.Lib.IdealHost

noncomputable section

namespace Cert.Sage

open Idealize.ShloMosaic Idealize.ShloMosaic.ValueIdx

/-- A scalar spread to any shape reads the scalar everywhere. -/
theorem splat_apply {t : Shape} {α : Type} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A per-column vector laid as a row and repeated down n rows reads the vector at the column. -/
theorem rowSpread_apply {n b : ℕ} {α : Type} (hb : b ≠ 1) (hrow : (⟨1, ![b]⟩ : Shape).BroadcastsInDim ⟨2, ![1, b]⟩ ![1])
    (hrep : (⟨2, ![1, b]⟩ : Shape).BroadcastsInDim ⟨2, ![n, b]⟩ ![0, 1]) (v : (⟨1, ![b]⟩ : Shape).Idx → α)
    (r : Fin n) (q : Fin b) :
    broadcastInDim ⟨2, ![n, b]⟩ ![0, 1] hrep (broadcastInDim ⟨2, ![1, b]⟩ ![1] hrow v) (ix2 r q) = v (ix1 q) := by
  rw [Cert.Lib.RowInDim.repeat_apply hb hrep _ r q, Cert.Lib.RowInDim.row_apply hb hrow v 0 q]

/-- The host's normalised layer is `bnLayer`. -/
theorem hostBn_eq (D : DotDims ⟨2, ![50000, 128]⟩ ⟨2, ![128, 128]⟩ ⟨2, ![50000, 128]⟩)
    (hD : D = DotDims.plain 50000 128 128)
    (hrow : (⟨1, ![128]⟩ : Shape).BroadcastsInDim ⟨2, ![1, 128]⟩ ![1])
    (hrep : (⟨2, ![1, 128]⟩ : Shape).BroadcastsInDim ⟨2, ![50000, 128]⟩ ![0, 1])
    (hs : (⟨0, ![]⟩ : Shape).BroadcastsInDim ⟨1, ![128]⟩ ![])
    (hz : (⟨0, ![]⟩ : Shape).BroadcastsInDim ⟨2, ![50000, 128]⟩ ![])
    (agg feat : FVec Ideal ⟨2, ![50000, 128]⟩ .f32) (Wl Wr : FVec Ideal ⟨2, ![128, 128]⟩ .f32)
    (b γ β μ v : FVec Ideal ⟨1, ![128]⟩ .f32) :
    maximumf (addf (mulf (subf (addf (addf (Host.dotGeneral D none agg Wl)
        (broadcastInDim ⟨2, ![50000, 128]⟩ ![0, 1] hrep (broadcastInDim ⟨2, ![1, 128]⟩ ![1] hrow b)))
        (Host.dotGeneral D none feat Wr))
        (broadcastInDim ⟨2, ![50000, 128]⟩ ![0, 1] hrep (broadcastInDim ⟨2, ![1, 128]⟩ ![1] hrow μ)))
        (broadcastInDim ⟨2, ![50000, 128]⟩ ![0, 1] hrep (broadcastInDim ⟨2, ![1, 128]⟩ ![1] hrow
          (mulf γ (Host.rsqrt (addf v (broadcastInDim ⟨1, ![128]⟩ ![] hs (constant (F := Ideal) ⟨0, ![]⟩ .f32 0x3727C5AC#32))))))))
        (broadcastInDim ⟨2, ![50000, 128]⟩ ![0, 1] hrep (broadcastInDim ⟨2, ![1, 128]⟩ ![1] hrow β)))
        (broadcastInDim ⟨2, ![50000, 128]⟩ ![] hz (constant (F := Ideal) ⟨0, ![]⟩ .f32 0x00000000#32))
      = bnLayer agg feat Wl Wr (fun q => b (ix1 q)) (fun q => γ (ix1 q)) (fun q => β (ix1 q)) (fun q => μ (ix1 q))
          (fun q => v (ix1 q)) := by
  funext i
  obtain ⟨r, q, rfl⟩ : ∃ (r : Fin 50000) (q : Fin 128), i = ix2 r q := ⟨i 0, i 1, eq_ix2 i⟩
  rw [maximumf_apply, addf_apply, mulf_apply, subf_apply, addf_apply, addf_apply,
    Cert.Lib.ContractPlain.hostDot_apply D hD none agg Wl r q,
    Cert.Lib.ContractPlain.hostDot_apply D hD none feat Wr r q,
    rowSpread_apply (by decide) hrow hrep b r q, rowSpread_apply (by decide) hrow hrep μ r q,
    rowSpread_apply (by decide) hrow hrep β r q, rowSpread_apply (by decide) hrow hrep _ r q,
    splat_apply hz _ _, add_right_comm]
  rfl

/-- The host's last layer is `plainLayer`. -/
theorem hostPlain_eq (D : DotDims ⟨2, ![50000, 128]⟩ ⟨2, ![128, 64]⟩ ⟨2, ![50000, 64]⟩)
    (hD : D = DotDims.plain 50000 128 64)
    (hrow : (⟨1, ![64]⟩ : Shape).BroadcastsInDim ⟨2, ![1, 64]⟩ ![1])
    (hrep : (⟨2, ![1, 64]⟩ : Shape).BroadcastsInDim ⟨2, ![50000, 64]⟩ ![0, 1])
    (agg feat : FVec Ideal ⟨2, ![50000, 128]⟩ .f32) (Wl Wr : FVec Ideal ⟨2, ![128, 64]⟩ .f32)
    (b : FVec Ideal ⟨1, ![64]⟩ .f32) :
    addf (addf (Host.dotGeneral D none agg Wl)
        (broadcastInDim ⟨2, ![50000, 64]⟩ ![0, 1] hrep (broadcastInDim ⟨2, ![1, 64]⟩ ![1] hrow b)))
        (Host.dotGeneral D none feat Wr)
      = plainLayer agg feat Wl Wr (fun q => b (ix1 q)) := by
  funext i
  obtain ⟨r, q, rfl⟩ : ∃ (r : Fin 50000) (q : Fin 64), i = ix2 r q := ⟨i 0, i 1, eq_ix2 i⟩
  rw [addf_apply, addf_apply,
    Cert.Lib.ContractPlain.hostDot_apply D hD none agg Wl r q,
    Cert.Lib.ContractPlain.hostDot_apply D hD none feat Wr r q,
    rowSpread_apply (by decide) hrow hrep b r q, add_right_comm]
  rfl

/-- Averaging over neighbours: the sums divided by the degree clamped below by one, against the sums times the
    reciprocal of that clamped degree, each spread from a per-node vector through a column over the 128 columns.
    The clamped degree is at least one, so it is not zero, and off zero the quotient is the product with the inverse. -/
theorem mean_eq (hcol : (⟨1, ![50000]⟩ : Shape).BroadcastsInDim ⟨2, ![50000, 1]⟩ ![0])
    (hspr : (⟨2, ![50000, 1]⟩ : Shape).BroadcastsInDim ⟨2, ![50000, 128]⟩ ![0, 1])
    (h5 : (⟨0, ![]⟩ : Shape).BroadcastsInDim ⟨1, ![50000]⟩ ![])
    (S : FVec Ideal ⟨2, ![50000, 128]⟩ .f32) (cnt : FVec Ideal ⟨1, ![50000]⟩ .f32) :
    mulf S (broadcastInDim ⟨2, ![50000, 128]⟩ ![0, 1] hspr (broadcastInDim ⟨2, ![50000, 1]⟩ ![0] hcol
        (Host.divf (broadcastInDim ⟨1, ![50000]⟩ ![] h5 (constant (F := Ideal) ⟨0, ![]⟩ .f32 0x3F800000#32))
          (maximumf cnt (broadcastInDim ⟨1, ![50000]⟩ ![] h5 (constant (F := Ideal) ⟨0, ![]⟩ .f32 0x3F800000#32))))))
      = Host.divf S (broadcastInDim ⟨2, ![50000, 128]⟩ ![0, 1] hspr (broadcastInDim ⟨2, ![50000, 1]⟩ ![0] hcol
        (maximumf cnt (broadcastInDim ⟨1, ![50000]⟩ ![] h5 (constant (F := Ideal) ⟨0, ![]⟩ .f32 0x3F800000#32))))) := by
  funext i
  obtain ⟨r, q, rfl⟩ : ∃ (r : Fin 50000) (q : Fin 128), i = ix2 r q := ⟨i 0, i 1, eq_ix2 i⟩
  have e1 : ∀ j, broadcastInDim ⟨1, ![50000]⟩ ![] h5 (constant (F := Ideal) ⟨0, ![]⟩ .f32 0x3F800000#32) j = (1 : EReal) :=
    fun j => by rw [splat_apply, constant_apply]; exact Ideal.ofBits_one_f32
  show S (ix2 r q) * _ = Ideal.div (S (ix2 r q)) _
  rw [Cert.Lib.ColumnInDim.spread_apply (by decide) hspr _ r q, Cert.Lib.ColumnInDim.column_apply (by decide) hcol _ r 0,
    Cert.Lib.ColumnInDim.spread_apply (by decide) hspr _ r q, Cert.Lib.ColumnInDim.column_apply (by decide) hcol _ r 0]
  show S (ix2 r q) * Ideal.div _ (max (cnt (ix1 r)) _) = Ideal.div (S (ix2 r q)) (max (cnt (ix1 r)) _)
  rw [e1, Cert.Lib.ScaleSum.div_of_ne_zero _ _ (Cert.Lib.ScaleSum.max_one_ne_zero _),
    Cert.Lib.ScaleSum.div_of_ne_zero _ _ (Cert.Lib.ScaleSum.max_one_ne_zero _), one_mul]

end Cert.Sage

end
-- ==== Proof.Graph.lean ====
/-
  The graph side of a layer, as whole arrays: what both programs compute on the host from the edge list.

  The edge list is a 2 × 600000 integer array: row 0 the source of each edge, row 1 its destination. A layer sums,
  for every node, the feature rows of the sources of the edges that end at it (a gather of rows by source — a
  negative source counted from the end, as array indexing does — then a scatter-add by destination into zeros), and
  averages: the kernel's program multiplies by the reciprocal of the node's in-degree clamped below by one, the
  reference divides by that clamped degree. The degree is the scatter-add of ones by destination.

  Both spellings are stated here over the same dimension records, so that the sums of the two programs are the same
  term and only the averaging differs; `mean_agree` is that the two averagings agree.
-/
import proofs.«172756_j52441550684206_1_alg».proof.Proof.Gen.KernelIdeal
import proofs.«172756_j52441550684206_1_alg».proof.Proof.HostLayers
import Idealize.ShloMosaic.Lib.ValueLayout

noncomputable section

namespace Cert.Sage

open Cert.KernelIdeal Cert.KernelIdeal.Gen Idealize.ShloMosaic Idealize.ShloMosaic.ValueIdx

/-- The sources of the edges. -/
def srcVec (E : IVec S2x600000 32) : IVec S600000 32 :=
  shapeCast _ (extractStridedSlice S1x600000 ![0, 0] E slices_S2x600000_S1x600000_0_0) shapeCasts_S1x600000_S600000

/-- The destinations of the edges. -/
def dstVec (E : IVec S2x600000 32) : IVec S600000 32 :=
  shapeCast _ (extractStridedSlice S1x600000 ![1, 0] E slices_S2x600000_S1x600000_1_0) shapeCasts_S1x600000_S600000

/-- The sources as a column of row indices, a negative one counted from the end. -/
def srcCol (E : IVec S2x600000 32) : IVec S600000x1 32 :=
  broadcastInDim S600000x1 ![0] bcast_S600000_S600000x1_0
    (select (cmpi .slt (srcVec E) (broadcastInDim S600000 ![] bcast_S_S600000 (constantI S_ 32 0#32)))
      (addi (srcVec E) (broadcastInDim S600000 ![] bcast_S_S600000 (constantI S_ 32 50000#32))) (srcVec E))

/-- The destinations as a column of row indices. -/
def dstCol (E : IVec S2x600000 32) : IVec S600000x1 32 :=
  broadcastInDim S600000x1 ![0] bcast_S600000_S600000x1_0 (dstVec E)

/-- For every node, the sum of the feature rows of its in-neighbours. -/
def segSum (E : IVec S2x600000 32) (feat : FVec Ideal S50000x128 .f32) : FVec Ideal S50000x128 .f32 :=
  Host.scatterAdd scatter_S50000x128_S600000x1_S600000x128_1_0_0_1
    (broadcastInDim S50000x128 ![] bcast_S_S50000x128 (constant (F := Ideal) S_ .f32 0x00000000#32)) (dstCol E)
    (Host.gather gather_S50000x128_S600000x1_S600000x128_1_0_n_n_0_1_1128 feat (srcCol E))

/-- Every node's in-degree. -/
def degree (E : IVec S2x600000 32) : FVec Ideal S50000 .f32 :=
  Host.scatterAdd scatter_S50000_S600000x1_S600000_n_0_0_1
    (broadcastInDim S50000 ![] bcast_S_S50000 (constant (F := Ideal) S_ .f32 0x00000000#32)) (dstCol E)
    (broadcastInDim S600000 ![] bcast_S_S600000 (constant (F := Ideal) S_ .f32 0x3F800000#32))

/-- One, at every node. -/
def ones : FVec Ideal S50000 .f32 :=
  broadcastInDim S50000 ![] bcast_S_S50000 (constant (F := Ideal) S_ .f32 0x3F800000#32)

/-- The reciprocal of the clamped degree, as a column. -/
def invCol (E : IVec S2x600000 32) : FVec Ideal S50000x1 .f32 :=
  broadcastInDim S50000x1 ![0] bcast_S50000_S50000x1_0 (Host.divf ones (maximumf (degree E) ones))

/-- The neighbour mean as the kernel's program spells it: the sums times the reciprocal of the clamped degree. -/
def meanMul (E : IVec S2x600000 32) (feat : FVec Ideal S50000x128 .f32) : FVec Ideal S50000x128 .f32 :=
  mulf (segSum E feat) (broadcastInDim S50000x128 ![0, 1] bcast_S50000x1_S50000x128_0_1 (invCol E))

/-- The same, from the three host arrays it is computed from: the sources, the destinations, the reciprocal column. -/
def meanOf (src dst : IVec S600000 32) (inv : FVec Ideal S50000x1 .f32) (feat : FVec Ideal S50000x128 .f32) :
    FVec Ideal S50000x128 .f32 :=
  mulf (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 dst)
      (Host.gather gather_S50000x128_S600000x1_S600000x128_1_0_n_n_0_1_1128 feat
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1 inv)

theorem meanOf_eq (E : IVec S2x600000 32) (feat : FVec Ideal S50000x128 .f32) :
    meanOf (srcVec E) (dstVec E) (invCol E) feat = meanMul E feat := rfl

/-- The neighbour mean as the reference spells it: the sums divided by the clamped degree. -/
def meanDiv (E : IVec S2x600000 32) (feat : FVec Ideal S50000x128 .f32) : FVec Ideal S50000x128 .f32 :=
  Host.divf (segSum E feat) (broadcastInDim S50000x128 ![0, 1] bcast_S50000x1_S50000x128_0_1
    (broadcastInDim S50000x1 ![0] bcast_S50000_S50000x1_0 (maximumf (degree E) ones)))

/-- The two spellings of the mean agree: the clamped degree is not zero. -/
theorem mean_agree (E : IVec S2x600000 32) (feat : FVec Ideal S50000x128 .f32) : meanMul E feat = meanDiv E feat :=
  mean_eq bcast_S50000_S50000x1_0 bcast_S50000x1_S50000x128_0_1 bcast_S_S50000 (segSum E feat) (degree E)

/-- A per-column vector as a function of the column. -/
def vec {n : ℕ} (a : FVec Ideal ⟨1, ![n]⟩ .f32) : Fin n → EReal := fun q => a (ix1 q)

/-- A per-column vector re-laid as a row of one line, read along the row, is the vector. -/
theorem row_eq_vec {n : ℕ} (a : FVec Ideal ⟨1, ![n]⟩ .f32) (h : (⟨1, ![n]⟩ : Shape).ShapeCasts ⟨2, ![1, n]⟩) :
    (fun q : Fin n => shapeCast ⟨2, ![1, n]⟩ a h (ix2 (0 : Fin 1) q)) = vec a :=
  funext fun q => shapeCast_a_1a_apply a h 0 q

/-- The three layers composed, with the kernel program's spelling of the mean: the common value of both programs. -/
def net (X : FVec Ideal S50000x128 .f32) (E : IVec S2x600000 32)
    (Wl0 : FVec Ideal S128x128 .f32) (b0 : FVec Ideal S128 .f32) (Wr0 : FVec Ideal S128x128 .f32)
    (g0 be0 mu0 va0 : FVec Ideal S128 .f32)
    (Wl1 : FVec Ideal S128x128 .f32) (b1 : FVec Ideal S128 .f32) (Wr1 : FVec Ideal S128x128 .f32)
    (g1 be1 mu1 va1 : FVec Ideal S128 .f32)
    (Wl2 : FVec Ideal S128x64 .f32) (b2 : FVec Ideal S64 .f32) (Wr2 : FVec Ideal S128x64 .f32) :
    FVec Ideal S50000x64 .f32 :=
  let L0 := bnLayer (meanMul E X) X Wl0 Wr0 (vec b0) (vec g0) (vec be0) (vec mu0) (vec va0)
  let L1 := bnLayer (meanMul E L0) L0 Wl1 Wr1 (vec b1) (vec g1) (vec be1) (vec mu1) (vec va1)
  plainLayer (meanMul E L1) L1 Wl2 Wr2 (vec b2)

end Cert.Sage

end
-- ==== Proof.CarryA.lean ====
/-
  What the buffers that later layers read hold after the first stretch of host operations and after the first grid.

  The first stretch computes, from the edge list, the sources and destinations of the edges and the reciprocal of the
  clamped in-degree as a column; no later operation writes them, and no operation at all writes an argument. The first
  layer's grid writes only its own output array. So after the stretch, and still after the grid, each of these buffers
  holds its function of the arguments.
-/
import proofs.«172756_j52441550684206_1_alg».proof.Proof.Gen.KernelIdeal.Frame
import proofs.«172756_j52441550684206_1_alg».proof.Proof.Graph
import Idealize.ShloMosaic.Lib.StableHlo.Run

set_option maxRecDepth 16384

noncomputable section

namespace Cert.KernelIdeal.Whole

open Cert.KernelIdeal Cert.KernelIdeal.Gen Cert.Sage
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

theorem w1_v1 : W1 m ρ c (Proc.devRef .tc main_v1) = srcVec (m ((c.tc : Thread nD τ).loc main_arg1)) := by
  show StableHlo.after hostOps0 (W0 m ρ c) (Proc.devRef .tc main_v1) = _
  dsimp only [hostOps0]
  after_results_simp <;> rfl

theorem w2_v1 : W2 m ρ c (Proc.devRef .tc main_v1) = srcVec (m ((c.tc : Thread nD τ).loc main_arg1)) :=
  (W2_of_ne m ρ c main_v1 (by decide)).trans (w1_v1 m ρ c)

theorem w1_v3 : W1 m ρ c (Proc.devRef .tc main_v3) = dstVec (m ((c.tc : Thread nD τ).loc main_arg1)) := by
  show StableHlo.after hostOps0 (W0 m ρ c) (Proc.devRef .tc main_v3) = _
  dsimp only [hostOps0]
  after_results_simp <;> rfl

theorem w2_v3 : W2 m ρ c (Proc.devRef .tc main_v3) = dstVec (m ((c.tc : Thread nD τ).loc main_arg1)) :=
  (W2_of_ne m ρ c main_v3 (by decide)).trans (w1_v3 m ρ c)

theorem w1_v12 : W1 m ρ c (Proc.devRef .tc main_v12) = invCol (m ((c.tc : Thread nD τ).loc main_arg1)) := by
  show StableHlo.after hostOps0 (W0 m ρ c) (Proc.devRef .tc main_v12) = _
  dsimp only [hostOps0]
  after_results_simp <;> rfl

theorem w2_v12 : W2 m ρ c (Proc.devRef .tc main_v12) = invCol (m ((c.tc : Thread nD τ).loc main_arg1)) :=
  (W2_of_ne m ρ c main_v12 (by decide)).trans (w1_v12 m ρ c)

theorem w1_arg9 : W1 m ρ c (Proc.devRef .tc main_arg9) = (m ((c.tc : Thread nD τ).loc main_arg9)) := by
  show StableHlo.after hostOps0 (W0 m ρ c) (Proc.devRef .tc main_arg9) = _
  dsimp only [hostOps0]
  after_results_simp <;> rfl

theorem w2_arg9 : W2 m ρ c (Proc.devRef .tc main_arg9) = (m ((c.tc : Thread nD τ).loc main_arg9)) :=
  (W2_of_ne m ρ c main_arg9 (by decide)).trans (w1_arg9 m ρ c)

theorem w1_arg10 : W1 m ρ c (Proc.devRef .tc main_arg10) = (m ((c.tc : Thread nD τ).loc main_arg10)) := by
  show StableHlo.after hostOps0 (W0 m ρ c) (Proc.devRef .tc main_arg10) = _
  dsimp only [hostOps0]
  after_results_simp <;> rfl

theorem w2_arg10 : W2 m ρ c (Proc.devRef .tc main_arg10) = (m ((c.tc : Thread nD τ).loc main_arg10)) :=
  (W2_of_ne m ρ c main_arg10 (by decide)).trans (w1_arg10 m ρ c)

theorem w1_arg11 : W1 m ρ c (Proc.devRef .tc main_arg11) = (m ((c.tc : Thread nD τ).loc main_arg11)) := by
  show StableHlo.after hostOps0 (W0 m ρ c) (Proc.devRef .tc main_arg11) = _
  dsimp only [hostOps0]
  after_results_simp <;> rfl

theorem w2_arg11 : W2 m ρ c (Proc.devRef .tc main_arg11) = (m ((c.tc : Thread nD τ).loc main_arg11)) :=
  (W2_of_ne m ρ c main_arg11 (by decide)).trans (w1_arg11 m ρ c)

theorem w1_arg12 : W1 m ρ c (Proc.devRef .tc main_arg12) = (m ((c.tc : Thread nD τ).loc main_arg12)) := by
  show StableHlo.after hostOps0 (W0 m ρ c) (Proc.devRef .tc main_arg12) = _
  dsimp only [hostOps0]
  after_results_simp <;> rfl

theorem w2_arg12 : W2 m ρ c (Proc.devRef .tc main_arg12) = (m ((c.tc : Thread nD τ).loc main_arg12)) :=
  (W2_of_ne m ρ c main_arg12 (by decide)).trans (w1_arg12 m ρ c)

theorem w1_arg13 : W1 m ρ c (Proc.devRef .tc main_arg13) = (m ((c.tc : Thread nD τ).loc main_arg13)) := by
  show StableHlo.after hostOps0 (W0 m ρ c) (Proc.devRef .tc main_arg13) = _
  dsimp only [hostOps0]
  after_results_simp <;> rfl

theorem w2_arg13 : W2 m ρ c (Proc.devRef .tc main_arg13) = (m ((c.tc : Thread nD τ).loc main_arg13)) :=
  (W2_of_ne m ρ c main_arg13 (by decide)).trans (w1_arg13 m ρ c)

theorem w1_arg14 : W1 m ρ c (Proc.devRef .tc main_arg14) = (m ((c.tc : Thread nD τ).loc main_arg14)) := by
  show StableHlo.after hostOps0 (W0 m ρ c) (Proc.devRef .tc main_arg14) = _
  dsimp only [hostOps0]
  after_results_simp <;> rfl

theorem w2_arg14 : W2 m ρ c (Proc.devRef .tc main_arg14) = (m ((c.tc : Thread nD τ).loc main_arg14)) :=
  (W2_of_ne m ρ c main_arg14 (by decide)).trans (w1_arg14 m ρ c)

theorem w1_arg15 : W1 m ρ c (Proc.devRef .tc main_arg15) = (m ((c.tc : Thread nD τ).loc main_arg15)) := by
  show StableHlo.after hostOps0 (W0 m ρ c) (Proc.devRef .tc main_arg15) = _
  dsimp only [hostOps0]
  after_results_simp <;> rfl

theorem w2_arg15 : W2 m ρ c (Proc.devRef .tc main_arg15) = (m ((c.tc : Thread nD τ).loc main_arg15)) :=
  (W2_of_ne m ρ c main_arg15 (by decide)).trans (w1_arg15 m ρ c)

theorem w1_arg16 : W1 m ρ c (Proc.devRef .tc main_arg16) = (m ((c.tc : Thread nD τ).loc main_arg16)) := by
  show StableHlo.after hostOps0 (W0 m ρ c) (Proc.devRef .tc main_arg16) = _
  dsimp only [hostOps0]
  after_results_simp <;> rfl

theorem w2_arg16 : W2 m ρ c (Proc.devRef .tc main_arg16) = (m ((c.tc : Thread nD τ).loc main_arg16)) :=
  (W2_of_ne m ρ c main_arg16 (by decide)).trans (w1_arg16 m ρ c)

theorem w1_arg17 : W1 m ρ c (Proc.devRef .tc main_arg17) = (m ((c.tc : Thread nD τ).loc main_arg17)) := by
  show StableHlo.after hostOps0 (W0 m ρ c) (Proc.devRef .tc main_arg17) = _
  dsimp only [hostOps0]
  after_results_simp <;> rfl

theorem w2_arg17 : W2 m ρ c (Proc.devRef .tc main_arg17) = (m ((c.tc : Thread nD τ).loc main_arg17)) :=
  (W2_of_ne m ρ c main_arg17 (by decide)).trans (w1_arg17 m ρ c)

theorem w1_arg18 : W1 m ρ c (Proc.devRef .tc main_arg18) = (m ((c.tc : Thread nD τ).loc main_arg18)) := by
  show StableHlo.after hostOps0 (W0 m ρ c) (Proc.devRef .tc main_arg18) = _
  dsimp only [hostOps0]
  after_results_simp <;> rfl

theorem w2_arg18 : W2 m ρ c (Proc.devRef .tc main_arg18) = (m ((c.tc : Thread nD τ).loc main_arg18)) :=
  (W2_of_ne m ρ c main_arg18 (by decide)).trans (w1_arg18 m ρ c)

end Cert.KernelIdeal.Whole

end
-- ==== Proof.CarryB.lean ====
/-
  What the buffers that the last layer reads hold after the second stretch of host operations and after the second grid:
  the second stretch writes none of the sources, the destinations, the reciprocal column or an argument, and the second
  layer's grid writes only its own output array, so each still holds its function of the arguments.
-/
import proofs.«172756_j52441550684206_1_alg».proof.Proof.CarryA

set_option maxRecDepth 16384

noncomputable section

namespace Cert.KernelIdeal.Whole

open Cert.KernelIdeal Cert.KernelIdeal.Gen Cert.Sage
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

theorem w3_v1 : W3 m ρ c (Proc.devRef .tc main_v1) = srcVec (m ((c.tc : Thread nD τ).loc main_arg1)) := by
  refine Eq.trans ?_ (w2_v1 m ρ c)
  show StableHlo.after hostOps1 (W2 m ρ c) (Proc.devRef .tc main_v1) = _
  dsimp only [hostOps1]
  after_results_simp <;> rfl

theorem w4_v1 : W4 m ρ c (Proc.devRef .tc main_v1) = srcVec (m ((c.tc : Thread nD τ).loc main_arg1)) :=
  (W4_of_ne m ρ c main_v1 (by decide)).trans (w3_v1 m ρ c)

theorem w3_v3 : W3 m ρ c (Proc.devRef .tc main_v3) = dstVec (m ((c.tc : Thread nD τ).loc main_arg1)) := by
  refine Eq.trans ?_ (w2_v3 m ρ c)
  show StableHlo.after hostOps1 (W2 m ρ c) (Proc.devRef .tc main_v3) = _
  dsimp only [hostOps1]
  after_results_simp <;> rfl

theorem w4_v3 : W4 m ρ c (Proc.devRef .tc main_v3) = dstVec (m ((c.tc : Thread nD τ).loc main_arg1)) :=
  (W4_of_ne m ρ c main_v3 (by decide)).trans (w3_v3 m ρ c)

theorem w3_v12 : W3 m ρ c (Proc.devRef .tc main_v12) = invCol (m ((c.tc : Thread nD τ).loc main_arg1)) := by
  refine Eq.trans ?_ (w2_v12 m ρ c)
  show StableHlo.after hostOps1 (W2 m ρ c) (Proc.devRef .tc main_v12) = _
  dsimp only [hostOps1]
  after_results_simp <;> rfl

theorem w4_v12 : W4 m ρ c (Proc.devRef .tc main_v12) = invCol (m ((c.tc : Thread nD τ).loc main_arg1)) :=
  (W4_of_ne m ρ c main_v12 (by decide)).trans (w3_v12 m ρ c)

theorem w3_arg16 : W3 m ρ c (Proc.devRef .tc main_arg16) = (m ((c.tc : Thread nD τ).loc main_arg16)) := by
  refine Eq.trans ?_ (w2_arg16 m ρ c)
  show StableHlo.after hostOps1 (W2 m ρ c) (Proc.devRef .tc main_arg16) = _
  dsimp only [hostOps1]
  after_results_simp <;> rfl

theorem w4_arg16 : W4 m ρ c (Proc.devRef .tc main_arg16) = (m ((c.tc : Thread nD τ).loc main_arg16)) :=
  (W4_of_ne m ρ c main_arg16 (by decide)).trans (w3_arg16 m ρ c)

theorem w3_arg17 : W3 m ρ c (Proc.devRef .tc main_arg17) = (m ((c.tc : Thread nD τ).loc main_arg17)) := by
  refine Eq.trans ?_ (w2_arg17 m ρ c)
  show StableHlo.after hostOps1 (W2 m ρ c) (Proc.devRef .tc main_arg17) = _
  dsimp only [hostOps1]
  after_results_simp <;> rfl

theorem w4_arg17 : W4 m ρ c (Proc.devRef .tc main_arg17) = (m ((c.tc : Thread nD τ).loc main_arg17)) :=
  (W4_of_ne m ρ c main_arg17 (by decide)).trans (w3_arg17 m ρ c)

theorem w3_arg18 : W3 m ρ c (Proc.devRef .tc main_arg18) = (m ((c.tc : Thread nD τ).loc main_arg18)) := by
  refine Eq.trans ?_ (w2_arg18 m ρ c)
  show StableHlo.after hostOps1 (W2 m ρ c) (Proc.devRef .tc main_arg18) = _
  dsimp only [hostOps1]
  after_results_simp <;> rfl

theorem w4_arg18 : W4 m ρ c (Proc.devRef .tc main_arg18) = (m ((c.tc : Thread nD τ).loc main_arg18)) :=
  (W4_of_ne m ρ c main_arg18 (by decide)).trans (w3_arg18 m ρ c)

end Cert.KernelIdeal.Whole

end
-- ==== Proof.Stretch0.lean ====
/-
  What the first grid's input arrays hold when it starts: the neighbour mean of the input features, the input features
  and the two weight matrices as launched, and the five per-column vectors re-laid as rows of one line.
-/
import proofs.«172756_j52441550684206_1_alg».proof.Proof.Gen.KernelIdeal.Frame
import proofs.«172756_j52441550684206_1_alg».proof.Proof.Graph
import Idealize.ShloMosaic.Lib.StableHlo.Run

set_option maxRecDepth 16384

noncomputable section

namespace Cert.KernelIdeal.Whole

open Cert.KernelIdeal Cert.KernelIdeal.Gen Cert.Sage
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

theorem s0_v24 : V1 m ρ c main_v24 = meanMul (m ((c.tc : Thread nD τ).loc main_arg1)) (m ((c.tc : Thread nD τ).loc main_arg0)) := by
  show StableHlo.after hostOps0 (W0 m ρ c) (Proc.devRef .tc main_v24) = _
  dsimp only [hostOps0]
  after_results_simp <;> rfl

theorem s0_arg0 : V1 m ρ c main_arg0 = (m ((c.tc : Thread nD τ).loc main_arg0)) := by
  show StableHlo.after hostOps0 (W0 m ρ c) (Proc.devRef .tc main_arg0) = _
  dsimp only [hostOps0]
  after_results_simp <;> rfl

theorem s0_arg2 : V1 m ρ c main_arg2 = (m ((c.tc : Thread nD τ).loc main_arg2)) := by
  show StableHlo.after hostOps0 (W0 m ρ c) (Proc.devRef .tc main_arg2) = _
  dsimp only [hostOps0]
  after_results_simp <;> rfl

theorem s0_arg4 : V1 m ρ c main_arg4 = (m ((c.tc : Thread nD τ).loc main_arg4)) := by
  show StableHlo.after hostOps0 (W0 m ρ c) (Proc.devRef .tc main_arg4) = _
  dsimp only [hostOps0]
  after_results_simp <;> rfl

theorem s0_v25 : V1 m ρ c main_v25 = shapeCast S1x128 (m ((c.tc : Thread nD τ).loc main_arg3)) shapeCasts_S128_S1x128 := by
  show StableHlo.after hostOps0 (W0 m ρ c) (Proc.devRef .tc main_v25) = _
  dsimp only [hostOps0]
  after_results_simp <;> rfl

theorem s0_v26 : V1 m ρ c main_v26 = shapeCast S1x128 (m ((c.tc : Thread nD τ).loc main_arg5)) shapeCasts_S128_S1x128 := by
  show StableHlo.after hostOps0 (W0 m ρ c) (Proc.devRef .tc main_v26) = _
  dsimp only [hostOps0]
  after_results_simp <;> rfl

theorem s0_v27 : V1 m ρ c main_v27 = shapeCast S1x128 (m ((c.tc : Thread nD τ).loc main_arg6)) shapeCasts_S128_S1x128 := by
  show StableHlo.after hostOps0 (W0 m ρ c) (Proc.devRef .tc main_v27) = _
  dsimp only [hostOps0]
  after_results_simp <;> rfl

theorem s0_v28 : V1 m ρ c main_v28 = shapeCast S1x128 (m ((c.tc : Thread nD τ).loc main_arg7)) shapeCasts_S128_S1x128 := by
  show StableHlo.after hostOps0 (W0 m ρ c) (Proc.devRef .tc main_v28) = _
  dsimp only [hostOps0]
  after_results_simp <;> rfl

theorem s0_v29 : V1 m ρ c main_v29 = shapeCast S1x128 (m ((c.tc : Thread nD τ).loc main_arg8)) shapeCasts_S128_S1x128 := by
  show StableHlo.after hostOps0 (W0 m ρ c) (Proc.devRef .tc main_v29) = _
  dsimp only [hostOps0]
  after_results_simp <;> rfl

end Cert.KernelIdeal.Whole

end
-- ==== Proof.KernelBody.lean ====
/-
  What a kernel body stores, read at one entry of the block.

  A body takes a block of 5000 rows of the aggregated features and of the nodes' own features, the two weight
  matrices whole, and the per-column vectors as rows of one line. Entry (p, q) of what it stores is the linear
  form of row p of the two blocks against column q of the two weight matrices plus the bias at q and — in the
  first two layers — the normalisation by column q's statistics and the clamp at zero. The narrowing of the
  operands to a shorter float format before the products changes nothing on the extended reals; each product into
  a zero accumulator is the plain sum over the contracted coordinate.
-/
import proofs.«172756_j52441550684206_1_alg».proof.Proof.Gen.KernelIdeal.Skeleton
import proofs.«172756_j52441550684206_1_alg».proof.Proof.Spec
import proofs.«172756_j52441550684206_1_alg».proof.Proof.LibContractPlain
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Cert.Sage Idealize.ShloMosaic Idealize.ShloMosaic.ValueIdx
open Cert.Lib.ContractPlain

/-- The first layer's body at entry (p, q). -/
theorem pay0_apply (x0 x1 : Vec Ideal S5000x128 .f32) (Wl Wr : Vec Ideal S128x128 .f32)
    (b γ β μ v : Vec Ideal S1x128 .f32) (p : Fin 5000) (q : Fin 128) :
    k0_pay1 (F := Ideal) x0 x1 Wl Wr b γ β μ v (ix2 p q)
      = bnRelu (lin (fun k => x0 (ix2 p k)) (fun k => x1 (ix2 p k)) (fun k => Wl (ix2 k q)) (fun k => Wr (ix2 k q))
          (b (ix2 (0 : Fin 1) q))) (γ (ix2 (0 : Fin 1) q)) (β (ix2 (0 : Fin 1) q)) (μ (ix2 (0 : Fin 1) q))
          (v (ix2 (0 : Fin 1) q)) := by
  unfold k0_pay1
  simp only [shapeCast_self]
  rw [maximumf_apply, addf_apply, mulf_apply, subf_apply, addf_apply, addf_apply,
    matmulZero_apply dot_S5000x128_S128x128_S5000x128_1_0_0_1_n_n rfl none _ _ p q,
    matmulZero_apply dot_S5000x128_S128x128_S5000x128_1_0_0_1_n_n rfl none _ _ p q]
  simp only [broadcastTo_1b_ab_apply]
  rfl

/-- The second layer's body at entry (p, q): the same function. -/
theorem pay1_apply (x0 x1 : Vec Ideal S5000x128 .f32) (Wl Wr : Vec Ideal S128x128 .f32)
    (b γ β μ v : Vec Ideal S1x128 .f32) (p : Fin 5000) (q : Fin 128) :
    k1_pay1 (F := Ideal) x0 x1 Wl Wr b γ β μ v (ix2 p q)
      = bnRelu (lin (fun k => x0 (ix2 p k)) (fun k => x1 (ix2 p k)) (fun k => Wl (ix2 k q)) (fun k => Wr (ix2 k q))
          (b (ix2 (0 : Fin 1) q))) (γ (ix2 (0 : Fin 1) q)) (β (ix2 (0 : Fin 1) q)) (μ (ix2 (0 : Fin 1) q))
          (v (ix2 (0 : Fin 1) q)) := by
  unfold k1_pay1
  simp only [shapeCast_self]
  rw [maximumf_apply, addf_apply, mulf_apply, subf_apply, addf_apply, addf_apply,
    matmulZero_apply dot_S5000x128_S128x128_S5000x128_1_0_0_1_n_n rfl none _ _ p q,
    matmulZero_apply dot_S5000x128_S128x128_S5000x128_1_0_0_1_n_n rfl none _ _ p q]
  simp only [broadcastTo_1b_ab_apply]
  rfl

/-- The last layer's body at entry (p, q): the linear form alone, into 64 columns. -/
theorem pay2_apply (x0 x1 : Vec Ideal S5000x128 .f32) (Wl Wr : Vec Ideal S128x64 .f32)
    (b : Vec Ideal S1x64 .f32) (p : Fin 5000) (q : Fin 64) :
    k2_pay1 (F := Ideal) x0 x1 Wl Wr b (ix2 p q)
      = lin (fun k => x0 (ix2 p k)) (fun k => x1 (ix2 p k)) (fun k => Wl (ix2 k q)) (fun k => Wr (ix2 k q))
          (b (ix2 (0 : Fin 1) q)) := by
  unfold k2_pay1
  simp only [shapeCast_self]
  rw [addf_apply, addf_apply, matmulZero_apply dot_S5000x128_S128x64_S5000x64_1_0_0_1_n_n rfl none _ _ p q,
    matmulZero_apply dot_S5000x128_S128x64_S5000x64_1_0_0_1_n_n rfl none _ _ p q]
  simp only [broadcastTo_1b_ab_apply]
  rfl

end Cert.KernelIdeal.Body

end
-- ==== Proof.Region0.lean ====
/-
  The first layer's output array after its grid of ten blocks.

  Grid point t reads rows 5000·t … 5000·t + 4999 of the aggregated features and of the nodes' own features, the
  weight matrices and the per-column rows whole, and writes the same rows of the output. So what point t writes back
  is block t of ONE function of the arrays as the region finds them — the normalised layer of Spec.lean —, the ten
  blocks cover all 50000 rows, and the array after the region is that function.
-/
import proofs.«172756_j52441550684206_1_alg».proof.Proof.Gen.KernelIdeal.Frame
import proofs.«172756_j52441550684206_1_alg».proof.Proof.KernelBody
import proofs.«172756_j52441550684206_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Sage Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays as the region finds them. -/
def G (c : Dev nD) : FVec Ideal S50000x128 .f32 :=
  bnLayer (V c main_v24) (V c main_arg0) (V c main_arg2) (V c main_arg4)
    (fun q => V c main_v25 (ix2 (0 : Fin 1) q)) (fun q => V c main_v26 (ix2 (0 : Fin 1) q))
    (fun q => V c main_v27 (ix2 (0 : Fin 1) q)) (fun q => V c main_v28 (ix2 (0 : Fin 1) q))
    (fun q => V c main_v29 (ix2 (0 : Fin 1) q))

/-- The printed index maps over the ten points: the two row-blocked inputs and the output sit at block (t, 0), every
    other window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

set_option maxHeartbeats 4000000 in
/-- What point t writes back is block t of the layer. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9]
  unfold out0_9
  rw [View.canon_unit_zero hz]
  simp only [View.ld_unit_zero (S := S5000x128) hz, View.ld_unit_zero (S := S128x128) hz,
    View.ld_unit_zero (S := S1x128) hz]
  obtain ⟨e00, e01, e10, e11, e90, e91, ⟨e20, e21⟩, ⟨e30, e31⟩, ⟨e40, e41⟩, ⟨e50, e51⟩, ⟨e60, e61⟩, ⟨e70, e71⟩, ⟨e80, e81⟩⟩ :=
    idx_facts t
  funext j
  obtain ⟨p, q, rfl⟩ : ∃ (p : Fin 5000) (q : Fin 128), j = ix2 p q := ⟨j 0, j 1, eq_ix2 j⟩
  refine (Cert.KernelIdeal.Body.pay0_apply (iblk0 V c 0 t) (iblk0 V c 1 t) (iblk0 V c 2 t) (iblk0 V c 4 t) (iblk0 V c 3 t)
    (iblk0 V c 5 t) (iblk0 V c 6 t) (iblk0 V c 7 t) (iblk0 V c 8 t) p q).trans ?_
  -- the array index of entry (p, q) of block t: row 5000·t + p, column q
  let E : S50000x128.Idx := ((cfg0.win 9).blk t).view.emb (ix2 p q)
  have hE0 : (E 0).val = t.val * 5000 + p.val := by
    show win0_9.index t (0 : Fin 2) * 5000 + 1 * p.val = _
    rw [e90]; omega
  have hE1 : E 1 = q := Fin.ext (by
    show win0_9.index t (1 : Fin 2) * 128 + 1 * q.val = q.val
    rw [e91]; omega)
  show _ = bnRelu (lin (fun k => V c main_v24 (ix2 (E 0) k)) (fun k => V c main_arg0 (ix2 (E 0) k))
      (fun k => V c main_arg2 (ix2 k (E 1))) (fun k => V c main_arg4 (ix2 k (E 1))) (V c main_v25 (ix2 (0 : Fin 1) (E 1))))
    (V c main_v26 (ix2 (0 : Fin 1) (E 1))) (V c main_v27 (ix2 (0 : Fin 1) (E 1))) (V c main_v28 (ix2 (0 : Fin 1) (E 1)))
    (V c main_v29 (ix2 (0 : Fin 1) (E 1)))
  rw [hE1]
  have a0 : (fun k : Fin 128 => iblk0 V c 0 t (ix2 p k)) = fun k => V c main_v24 (ix2 (E 0) k) :=
    funext fun k => congrArg (V c main_v24) (funext fun a => Fin.ext (by
      match a with
      | ⟨0, _⟩ => show win0_0.index t (0 : Fin 2) * 5000 + 1 * p.val = (E 0).val; rw [hE0, e00]; omega
      | ⟨1, _⟩ => show win0_0.index t (1 : Fin 2) * 128 + 1 * k.val = k.val; rw [e01]; omega))
  have a1 : (fun k : Fin 128 => iblk0 V c 1 t (ix2 p k)) = fun k => V c main_arg0 (ix2 (E 0) k) :=
    funext fun k => congrArg (V c main_arg0) (funext fun a => Fin.ext (by
      match a with
      | ⟨0, _⟩ => show win0_1.index t (0 : Fin 2) * 5000 + 1 * p.val = (E 0).val; rw [hE0, e10]; omega
      | ⟨1, _⟩ => show win0_1.index t (1 : Fin 2) * 128 + 1 * k.val = k.val; rw [e11]; omega))
  have a2 : (fun k : Fin 128 => iblk0 V c 2 t (ix2 k q)) = fun k => V c main_arg2 (ix2 k q) :=
    funext fun k => congrArg (V c main_arg2) (funext fun a => Fin.ext (by
      match a with
      | ⟨0, _⟩ => show win0_2.index t (0 : Fin 2) * 128 + 1 * k.val = k.val; rw [e20]; omega
      | ⟨1, _⟩ => show win0_2.index t (1 : Fin 2) * 128 + 1 * q.val = q.val; rw [e21]; omega))
  have a4 : (fun k : Fin 128 => iblk0 V c 4 t (ix2 k q)) = fun k => V c main_arg4 (ix2 k q) :=
    funext fun k => congrArg (V c main_arg4) (funext fun a => Fin.ext (by
      match a with
      | ⟨0, _⟩ => show win0_4.index t (0 : Fin 2) * 128 + 1 * k.val = k.val; rw [e40]; omega
      | ⟨1, _⟩ => show win0_4.index t (1 : Fin 2) * 128 + 1 * q.val = q.val; rw [e41]; omega))
  have a3 : iblk0 V c 3 t (ix2 (0 : Fin 1) q) = V c main_v25 (ix2 (0 : Fin 1) q) :=
    congrArg (V c main_v25) (funext fun a => Fin.ext (by
      match a with
      | ⟨0, _⟩ => show win0_3.index t (0 : Fin 2) * 1 + 1 * 0 = 0; rw [e30]
      | ⟨1, _⟩ => show win0_3.index t (1 : Fin 2) * 128 + 1 * q.val = q.val; rw [e31]; omega))
  have a5 : iblk0 V c 5 t (ix2 (0 : Fin 1) q) = V c main_v26 (ix2 (0 : Fin 1) q) :=
    congrArg (V c main_v26) (funext fun a => Fin.ext (by
      match a with
      | ⟨0, _⟩ => show win0_5.index t (0 : Fin 2) * 1 + 1 * 0 = 0; rw [e50]
      | ⟨1, _⟩ => show win0_5.index t (1 : Fin 2) * 128 + 1 * q.val = q.val; rw [e51]; omega))
  have a6 : iblk0 V c 6 t (ix2 (0 : Fin 1) q) = V c main_v27 (ix2 (0 : Fin 1) q) :=
    congrArg (V c main_v27) (funext fun a => Fin.ext (by
      match a with
      | ⟨0, _⟩ => show win0_6.index t (0 : Fin 2) * 1 + 1 * 0 = 0; rw [e60]
      | ⟨1, _⟩ => show win0_6.index t (1 : Fin 2) * 128 + 1 * q.val = q.val; rw [e61]; omega))
  have a7 : iblk0 V c 7 t (ix2 (0 : Fin 1) q) = V c main_v28 (ix2 (0 : Fin 1) q) :=
    congrArg (V c main_v28) (funext fun a => Fin.ext (by
      match a with
      | ⟨0, _⟩ => show win0_7.index t (0 : Fin 2) * 1 + 1 * 0 = 0; rw [e70]
      | ⟨1, _⟩ => show win0_7.index t (1 : Fin 2) * 128 + 1 * q.val = q.val; rw [e71]; omega))
  have a8 : iblk0 V c 8 t (ix2 (0 : Fin 1) q) = V c main_v29 (ix2 (0 : Fin 1) q) :=
    congrArg (V c main_v29) (funext fun a => Fin.ext (by
      match a with
      | ⟨0, _⟩ => show win0_8.index t (0 : Fin 2) * 1 + 1 * 0 = 0; rw [e80]
      | ⟨1, _⟩ => show win0_8.index t (1 : Fin 2) * 128 + 1 * q.val = q.val; rw [e81]; omega))
  rw [a0, a1, a2, a4, a3, a5, a6, a7, a8]

/-- An index of the array is in point t's block iff each coordinate is in the block's range on its axis. -/
theorem mem_blk (t : Fin cfg0.N) (i : S50000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v30).slice (win0_9.rect t)).set ↔ _
  rw [View.set_slice_whole, Rect.mem_set_unit]
  exact Iff.rfl

/-- Every row is in the block of the point that is the row's number divided by 5000. -/
theorem cover (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  have ht : (i 0).val / 5000 < 10 := by omega
  obtain ⟨-, -, -, -, e90, e91, -⟩ := idx_facts ⟨(i 0).val / 5000, ht⟩
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e90]; show (i 0).val / 5000 * 5000 ≤ (i 0).val ∧ (i 0).val < (i 0).val / 5000 * 5000 + 5000; omega
  | ⟨1, _⟩ =>
    show win0_9.index ⟨(i 0).val / 5000, ht⟩ (1 : Fin 2) * 128 ≤ (i 1).val
      ∧ (i 1).val < win0_9.index ⟨(i 0).val / 5000, ht⟩ (1 : Fin 2) * 128 + 128
    rw [e91]; omega

/-- The array after the region is the layer of the arrays as the region found them. -/
theorem final (c : Dev nD) : (dat0 (F := Ideal) V c).arrAt 9 cfg0.N = G V c :=
  (dat0 (F := Ideal) V c).arrAt_eq_of_cover 9 (G V c) (fun t _ => flushed_eq V c t) cover

end Cert.KernelIdeal.Region0

end
-- ==== Proof.Layer0.lean ====
/-
  The first layer's output as a function of the arguments.

  Before the first grid the host has computed the neighbour mean of the input features and re-laid the five per-column
  vectors as rows of one line (Stretch0.lean); the grid then leaves the normalised layer of those arrays (Region0.lean).
  A vector re-laid as a row and read along the row is the vector, so this is the layer of the arguments themselves.
-/
import proofs.«172756_j52441550684206_1_alg».proof.Proof.Stretch0
import proofs.«172756_j52441550684206_1_alg».proof.Proof.Region0

set_option maxRecDepth 16384

noncomputable section

namespace Cert.KernelIdeal.Whole

open Cert.KernelIdeal Cert.KernelIdeal.Gen Cert.Sage
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

/-- The first layer of the arguments. -/
def layer0 : FVec Ideal S50000x128 .f32 :=
  bnLayer (meanMul (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg4))
    (vec (m ((c.tc : Thread nD τ).loc main_arg3))) (vec (m ((c.tc : Thread nD τ).loc main_arg5))) (vec (m ((c.tc : Thread nD τ).loc main_arg6))) (vec (m ((c.tc : Thread nD τ).loc main_arg7))) (vec (m ((c.tc : Thread nD τ).loc main_arg8)))

theorem lay0 : Region0.G (V1 m ρ) c = layer0 m c := by
  unfold Region0.G layer0
  rw [s0_v24, s0_arg0, s0_arg2, s0_arg4, s0_v25, s0_v26, s0_v27, s0_v28, s0_v29]
  simp only [row_eq_vec]

/-- After the first grid its output array holds the first layer of the arguments. -/
theorem w2_v30 : W2 m ρ c (Proc.devRef .tc main_v30) = layer0 m c :=
  (W2_arr m ρ c 9).trans ((Region0.final (V1 m ρ) c).trans (lay0 m ρ c))

end Cert.KernelIdeal.Whole

end
-- ==== Proof.Stretch1.lean ====
/-
  What the second grid's input arrays hold when it starts, in terms of the buffers as the first grid left them: the
  neighbour mean of the first grid's output, that output and the two weight matrices unchanged, and the second layer's
  five per-column vectors re-laid as rows of one line.
-/
import proofs.«172756_j52441550684206_1_alg».proof.Proof.Gen.KernelIdeal.Frame
import proofs.«172756_j52441550684206_1_alg».proof.Proof.Graph
import Idealize.ShloMosaic.Lib.StableHlo.Run

set_option maxRecDepth 16384

noncomputable section

namespace Cert.KernelIdeal.Whole

open Cert.KernelIdeal Cert.KernelIdeal.Gen Cert.Sage
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

theorem s1_v42 : V3 m ρ c main_v42 = meanOf (W2 m ρ c (Proc.devRef .tc main_v1)) (W2 m ρ c (Proc.devRef .tc main_v3)) (W2 m ρ c (Proc.devRef .tc main_v12)) (W2 m ρ c (Proc.devRef .tc main_v30)) := by
  show StableHlo.after hostOps1 (W2 m ρ c) (Proc.devRef .tc main_v42) = _
  dsimp only [hostOps1]
  after_results_simp <;> rfl

theorem s1_v30 : V3 m ρ c main_v30 = (W2 m ρ c (Proc.devRef .tc main_v30)) := by
  show StableHlo.after hostOps1 (W2 m ρ c) (Proc.devRef .tc main_v30) = _
  dsimp only [hostOps1]
  after_results_simp <;> rfl

theorem s1_arg9 : V3 m ρ c main_arg9 = (W2 m ρ c (Proc.devRef .tc main_arg9)) := by
  show StableHlo.after hostOps1 (W2 m ρ c) (Proc.devRef .tc main_arg9) = _
  dsimp only [hostOps1]
  after_results_simp <;> rfl

theorem s1_arg11 : V3 m ρ c main_arg11 = (W2 m ρ c (Proc.devRef .tc main_arg11)) := by
  show StableHlo.after hostOps1 (W2 m ρ c) (Proc.devRef .tc main_arg11) = _
  dsimp only [hostOps1]
  after_results_simp <;> rfl

theorem s1_v43 : V3 m ρ c main_v43 = shapeCast S1x128 (W2 m ρ c (Proc.devRef .tc main_arg10)) shapeCasts_S128_S1x128 := by
  show StableHlo.after hostOps1 (W2 m ρ c) (Proc.devRef .tc main_v43) = _
  dsimp only [hostOps1]
  after_results_simp <;> rfl

theorem s1_v44 : V3 m ρ c main_v44 = shapeCast S1x128 (W2 m ρ c (Proc.devRef .tc main_arg12)) shapeCasts_S128_S1x128 := by
  show StableHlo.after hostOps1 (W2 m ρ c) (Proc.devRef .tc main_v44) = _
  dsimp only [hostOps1]
  after_results_simp <;> rfl

theorem s1_v45 : V3 m ρ c main_v45 = shapeCast S1x128 (W2 m ρ c (Proc.devRef .tc main_arg13)) shapeCasts_S128_S1x128 := by
  show StableHlo.after hostOps1 (W2 m ρ c) (Proc.devRef .tc main_v45) = _
  dsimp only [hostOps1]
  after_results_simp <;> rfl

theorem s1_v46 : V3 m ρ c main_v46 = shapeCast S1x128 (W2 m ρ c (Proc.devRef .tc main_arg14)) shapeCasts_S128_S1x128 := by
  show StableHlo.after hostOps1 (W2 m ρ c) (Proc.devRef .tc main_v46) = _
  dsimp only [hostOps1]
  after_results_simp <;> rfl

theorem s1_v47 : V3 m ρ c main_v47 = shapeCast S1x128 (W2 m ρ c (Proc.devRef .tc main_arg15)) shapeCasts_S128_S1x128 := by
  show StableHlo.after hostOps1 (W2 m ρ c) (Proc.devRef .tc main_v47) = _
  dsimp only [hostOps1]
  after_results_simp <;> rfl

end Cert.KernelIdeal.Whole

end
-- ==== Proof.Region1.lean ====
/-
  The second layer's output array after its grid of ten blocks.

  As in the first layer, grid point t reads rows 5000·t … 5000·t + 4999 of the aggregated features and of the nodes' own
  features (here the first layer's output), the
  weight matrices and the per-column rows whole, and writes the same rows of the output. So what point t writes back
  is block t of ONE function of the arrays as the region finds them — the normalised layer of Spec.lean —, the ten
  blocks cover all 50000 rows, and the array after the region is that function.
-/
import proofs.«172756_j52441550684206_1_alg».proof.Proof.Gen.KernelIdeal.Frame
import proofs.«172756_j52441550684206_1_alg».proof.Proof.KernelBody
import proofs.«172756_j52441550684206_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Sage Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays as the region finds them. -/
def G (c : Dev nD) : FVec Ideal S50000x128 .f32 :=
  bnLayer (V c main_v42) (V c main_v30) (V c main_arg9) (V c main_arg11)
    (fun q => V c main_v43 (ix2 (0 : Fin 1) q)) (fun q => V c main_v44 (ix2 (0 : Fin 1) q))
    (fun q => V c main_v45 (ix2 (0 : Fin 1) q)) (fun q => V c main_v46 (ix2 (0 : Fin 1) q))
    (fun q => V c main_v47 (ix2 (0 : Fin 1) q))

/-- The printed index maps over the ten points: the two row-blocked inputs and the output sit at block (t, 0), every
    other window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

set_option maxHeartbeats 4000000 in
/-- What point t writes back is block t of the layer. -/
theorem flushed_eq (c : Dev nD) (t : Fin cfg1.N) :
    (dat1 (F := Ideal) V c).flushed 9 t = ((cfg1.win 9).blk t).view.read (Elt Ideal) (G V c) := by
  show (cfg1.win 9).cut (grid1.coords t) ((dat1 (F := Ideal) V c).after 9 t) = _
  rw [after1_9]
  unfold out1_9
  rw [View.canon_unit_zero hz]
  simp only [View.ld_unit_zero (S := S5000x128) hz, View.ld_unit_zero (S := S128x128) hz,
    View.ld_unit_zero (S := S1x128) hz]
  obtain ⟨e00, e01, e10, e11, e90, e91, ⟨e20, e21⟩, ⟨e30, e31⟩, ⟨e40, e41⟩, ⟨e50, e51⟩, ⟨e60, e61⟩, ⟨e70, e71⟩, ⟨e80, e81⟩⟩ :=
    idx_facts t
  funext j
  obtain ⟨p, q, rfl⟩ : ∃ (p : Fin 5000) (q : Fin 128), j = ix2 p q := ⟨j 0, j 1, eq_ix2 j⟩
  refine (Cert.KernelIdeal.Body.pay1_apply (iblk1 V c 0 t) (iblk1 V c 1 t) (iblk1 V c 2 t) (iblk1 V c 4 t) (iblk1 V c 3 t)
    (iblk1 V c 5 t) (iblk1 V c 6 t) (iblk1 V c 7 t) (iblk1 V c 8 t) p q).trans ?_
  -- the array index of entry (p, q) of block t: row 5000·t + p, column q
  let E : S50000x128.Idx := ((cfg1.win 9).blk t).view.emb (ix2 p q)
  have hE0 : (E 0).val = t.val * 5000 + p.val := by
    show win1_9.index t (0 : Fin 2) * 5000 + 1 * p.val = _
    rw [e90]; omega
  have hE1 : E 1 = q := Fin.ext (by
    show win1_9.index t (1 : Fin 2) * 128 + 1 * q.val = q.val
    rw [e91]; omega)
  show _ = bnRelu (lin (fun k => V c main_v42 (ix2 (E 0) k)) (fun k => V c main_v30 (ix2 (E 0) k))
      (fun k => V c main_arg9 (ix2 k (E 1))) (fun k => V c main_arg11 (ix2 k (E 1))) (V c main_v43 (ix2 (0 : Fin 1) (E 1))))
    (V c main_v44 (ix2 (0 : Fin 1) (E 1))) (V c main_v45 (ix2 (0 : Fin 1) (E 1))) (V c main_v46 (ix2 (0 : Fin 1) (E 1)))
    (V c main_v47 (ix2 (0 : Fin 1) (E 1)))
  rw [hE1]
  have a0 : (fun k : Fin 128 => iblk1 V c 0 t (ix2 p k)) = fun k => V c main_v42 (ix2 (E 0) k) :=
    funext fun k => congrArg (V c main_v42) (funext fun a => Fin.ext (by
      match a with
      | ⟨0, _⟩ => show win1_0.index t (0 : Fin 2) * 5000 + 1 * p.val = (E 0).val; rw [hE0, e00]; omega
      | ⟨1, _⟩ => show win1_0.index t (1 : Fin 2) * 128 + 1 * k.val = k.val; rw [e01]; omega))
  have a1 : (fun k : Fin 128 => iblk1 V c 1 t (ix2 p k)) = fun k => V c main_v30 (ix2 (E 0) k) :=
    funext fun k => congrArg (V c main_v30) (funext fun a => Fin.ext (by
      match a with
      | ⟨0, _⟩ => show win1_1.index t (0 : Fin 2) * 5000 + 1 * p.val = (E 0).val; rw [hE0, e10]; omega
      | ⟨1, _⟩ => show win1_1.index t (1 : Fin 2) * 128 + 1 * k.val = k.val; rw [e11]; omega))
  have a2 : (fun k : Fin 128 => iblk1 V c 2 t (ix2 k q)) = fun k => V c main_arg9 (ix2 k q) :=
    funext fun k => congrArg (V c main_arg9) (funext fun a => Fin.ext (by
      match a with
      | ⟨0, _⟩ => show win1_2.index t (0 : Fin 2) * 128 + 1 * k.val = k.val; rw [e20]; omega
      | ⟨1, _⟩ => show win1_2.index t (1 : Fin 2) * 128 + 1 * q.val = q.val; rw [e21]; omega))
  have a4 : (fun k : Fin 128 => iblk1 V c 4 t (ix2 k q)) = fun k => V c main_arg11 (ix2 k q) :=
    funext fun k => congrArg (V c main_arg11) (funext fun a => Fin.ext (by
      match a with
      | ⟨0, _⟩ => show win1_4.index t (0 : Fin 2) * 128 + 1 * k.val = k.val; rw [e40]; omega
      | ⟨1, _⟩ => show win1_4.index t (1 : Fin 2) * 128 + 1 * q.val = q.val; rw [e41]; omega))
  have a3 : iblk1 V c 3 t (ix2 (0 : Fin 1) q) = V c main_v43 (ix2 (0 : Fin 1) q) :=
    congrArg (V c main_v43) (funext fun a => Fin.ext (by
      match a with
      | ⟨0, _⟩ => show win1_3.index t (0 : Fin 2) * 1 + 1 * 0 = 0; rw [e30]
      | ⟨1, _⟩ => show win1_3.index t (1 : Fin 2) * 128 + 1 * q.val = q.val; rw [e31]; omega))
  have a5 : iblk1 V c 5 t (ix2 (0 : Fin 1) q) = V c main_v44 (ix2 (0 : Fin 1) q) :=
    congrArg (V c main_v44) (funext fun a => Fin.ext (by
      match a with
      | ⟨0, _⟩ => show win1_5.index t (0 : Fin 2) * 1 + 1 * 0 = 0; rw [e50]
      | ⟨1, _⟩ => show win1_5.index t (1 : Fin 2) * 128 + 1 * q.val = q.val; rw [e51]; omega))
  have a6 : iblk1 V c 6 t (ix2 (0 : Fin 1) q) = V c main_v45 (ix2 (0 : Fin 1) q) :=
    congrArg (V c main_v45) (funext fun a => Fin.ext (by
      match a with
      | ⟨0, _⟩ => show win1_6.index t (0 : Fin 2) * 1 + 1 * 0 = 0; rw [e60]
      | ⟨1, _⟩ => show win1_6.index t (1 : Fin 2) * 128 + 1 * q.val = q.val; rw [e61]; omega))
  have a7 : iblk1 V c 7 t (ix2 (0 : Fin 1) q) = V c main_v46 (ix2 (0 : Fin 1) q) :=
    congrArg (V c main_v46) (funext fun a => Fin.ext (by
      match a with
      | ⟨0, _⟩ => show win1_7.index t (0 : Fin 2) * 1 + 1 * 0 = 0; rw [e70]
      | ⟨1, _⟩ => show win1_7.index t (1 : Fin 2) * 128 + 1 * q.val = q.val; rw [e71]; omega))
  have a8 : iblk1 V c 8 t (ix2 (0 : Fin 1) q) = V c main_v47 (ix2 (0 : Fin 1) q) :=
    congrArg (V c main_v47) (funext fun a => Fin.ext (by
      match a with
      | ⟨0, _⟩ => show win1_8.index t (0 : Fin 2) * 1 + 1 * 0 = 0; rw [e80]
      | ⟨1, _⟩ => show win1_8.index t (1 : Fin 2) * 128 + 1 * q.val = q.val; rw [e81]; omega))
  rw [a0, a1, a2, a4, a3, a5, a6, a7, a8]

/-- An index of the array is in point t's block iff each coordinate is in the block's range on its axis. -/
theorem mem_blk (t : Fin cfg1.N) (i : S50000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v48).slice (win1_9.rect t)).set ↔ _
  rw [View.set_slice_whole, Rect.mem_set_unit]
  exact Iff.rfl

/-- Every row is in the block of the point that is the row's number divided by 5000. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have ht : (i 0).val / 5000 < 10 := by omega
  obtain ⟨-, -, -, -, e90, e91, -⟩ := idx_facts ⟨(i 0).val / 5000, ht⟩
  refine ⟨⟨(i 0).val / 5000, ht⟩, flush1_9 _, ?_⟩
  rw [mem_blk]
  intro a
  match a with
  | ⟨0, _⟩ =>
    show win1_9.index ⟨(i 0).val / 5000, ht⟩ (0 : Fin 2) * 5000 ≤ (i 0).val
      ∧ (i 0).val < win1_9.index ⟨(i 0).val / 5000, ht⟩ (0 : Fin 2) * 5000 + 5000
    rw [e90]; show (i 0).val / 5000 * 5000 ≤ (i 0).val ∧ (i 0).val < (i 0).val / 5000 * 5000 + 5000; omega
  | ⟨1, _⟩ =>
    show win1_9.index ⟨(i 0).val / 5000, ht⟩ (1 : Fin 2) * 128 ≤ (i 1).val
      ∧ (i 1).val < win1_9.index ⟨(i 0).val / 5000, ht⟩ (1 : Fin 2) * 128 + 128
    rw [e91]; omega

/-- The array after the region is the layer of the arrays as the region found them. -/
theorem final (c : Dev nD) : (dat1 (F := Ideal) V c).arrAt 9 cfg1.N = G V c :=
  (dat1 (F := Ideal) V c).arrAt_eq_of_cover 9 (G V c) (fun t _ => flushed_eq V c t) cover

end Cert.KernelIdeal.Region1

end
-- ==== Proof.Layer1.lean ====
/-
  The second layer's output as a function of the arguments.

  Between the first and the second grid the host computes the neighbour mean of the first layer's output — from the
  same sources, destinations and reciprocal column, which nothing has written since (CarryA.lean) — and re-lays the
  second layer's per-column vectors as rows (Stretch1.lean); the second grid leaves the normalised layer of those arrays
  (Region1.lean). Read back, this is the second layer of the first layer of the arguments.
-/
import proofs.«172756_j52441550684206_1_alg».proof.Proof.CarryA
import proofs.«172756_j52441550684206_1_alg».proof.Proof.Layer0
import proofs.«172756_j52441550684206_1_alg».proof.Proof.Stretch1
import proofs.«172756_j52441550684206_1_alg».proof.Proof.Region1

set_option maxRecDepth 16384

noncomputable section

namespace Cert.KernelIdeal.Whole

open Cert.KernelIdeal Cert.KernelIdeal.Gen Cert.Sage
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

/-- The second layer of the arguments. -/
def layer1 : FVec Ideal S50000x128 .f32 :=
  bnLayer (meanMul (m ((c.tc : Thread nD τ).loc main_arg1)) (layer0 m c)) (layer0 m c) (m ((c.tc : Thread nD τ).loc main_arg9)) (m ((c.tc : Thread nD τ).loc main_arg11))
    (vec (m ((c.tc : Thread nD τ).loc main_arg10))) (vec (m ((c.tc : Thread nD τ).loc main_arg12))) (vec (m ((c.tc : Thread nD τ).loc main_arg13))) (vec (m ((c.tc : Thread nD τ).loc main_arg14))) (vec (m ((c.tc : Thread nD τ).loc main_arg15)))

theorem lay1 : Region1.G (V3 m ρ) c = layer1 m c := by
  unfold Region1.G layer1
  rw [s1_v42, s1_v30, s1_arg9, s1_arg11, s1_v43, s1_v44, s1_v45, s1_v46, s1_v47,
    w2_v1, w2_v3, w2_v12, w2_v30, w2_arg9, w2_arg10, w2_arg11, w2_arg12, w2_arg13, w2_arg14, w2_arg15, meanOf_eq]
  simp only [row_eq_vec]

/-- After the second grid its output array holds the second layer of the arguments. -/
theorem w4_v48 : W4 m ρ c (Proc.devRef .tc main_v48) = layer1 m c :=
  (W4_arr m ρ c 9).trans ((Region1.final (V3 m ρ) c).trans (lay1 m ρ c))

end Cert.KernelIdeal.Whole

end
-- ==== Proof.Stretch2.lean ====
/-
  What the third grid's input arrays hold when it starts, in terms of the buffers as the second grid left them: the
  neighbour mean of the second grid's output, that output and the two weight matrices unchanged, and the last bias
  re-laid as a row of one line.
-/
import proofs.«172756_j52441550684206_1_alg».proof.Proof.Gen.KernelIdeal.Frame
import proofs.«172756_j52441550684206_1_alg».proof.Proof.Graph
import Idealize.ShloMosaic.Lib.StableHlo.Run

set_option maxRecDepth 16384

noncomputable section

namespace Cert.KernelIdeal.Whole

open Cert.KernelIdeal Cert.KernelIdeal.Gen Cert.Sage
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

theorem s2_v60 : V5 m ρ c main_v60 = meanOf (W4 m ρ c (Proc.devRef .tc main_v1)) (W4 m ρ c (Proc.devRef .tc main_v3)) (W4 m ρ c (Proc.devRef .tc main_v12)) (W4 m ρ c (Proc.devRef .tc main_v48)) := by
  show StableHlo.after hostOps2 (W4 m ρ c) (Proc.devRef .tc main_v60) = _
  dsimp only [hostOps2]
  after_results_simp <;> rfl

theorem s2_v48 : V5 m ρ c main_v48 = (W4 m ρ c (Proc.devRef .tc main_v48)) := by
  show StableHlo.after hostOps2 (W4 m ρ c) (Proc.devRef .tc main_v48) = _
  dsimp only [hostOps2]
  after_results_simp <;> rfl

theorem s2_arg16 : V5 m ρ c main_arg16 = (W4 m ρ c (Proc.devRef .tc main_arg16)) := by
  show StableHlo.after hostOps2 (W4 m ρ c) (Proc.devRef .tc main_arg16) = _
  dsimp only [hostOps2]
  after_results_simp <;> rfl

theorem s2_arg18 : V5 m ρ c main_arg18 = (W4 m ρ c (Proc.devRef .tc main_arg18)) := by
  show StableHlo.after hostOps2 (W4 m ρ c) (Proc.devRef .tc main_arg18) = _
  dsimp only [hostOps2]
  after_results_simp <;> rfl

theorem s2_v61 : V5 m ρ c main_v61 = shapeCast S1x64 (W4 m ρ c (Proc.devRef .tc main_arg17)) shapeCasts_S64_S1x64 := by
  show StableHlo.after hostOps2 (W4 m ρ c) (Proc.devRef .tc main_v61) = _
  dsimp only [hostOps2]
  after_results_simp <;> rfl

end Cert.KernelIdeal.Whole

end
-- ==== Proof.Region2.lean ====
/-
  The last layer's output array after its grid of ten blocks.

  Grid point t reads rows 5000·t … 5000·t + 4999 of the aggregated features and of the second layer's output, the two
  128 × 64 weight matrices and the bias row whole, and writes the same rows of the 50000 × 64 output. What point t
  writes back is block t of the linear layer of Spec.lean of the arrays as the region finds them, the ten blocks cover
  all rows, and the array after the region is that function.
-/
import proofs.«172756_j52441550684206_1_alg».proof.Proof.Gen.KernelIdeal.Frame
import proofs.«172756_j52441550684206_1_alg».proof.Proof.KernelBody
import proofs.«172756_j52441550684206_1_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.Sage Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays as the region finds them. -/
def G (c : Dev nD) : FVec Ideal S50000x64 .f32 :=
  plainLayer (V c main_v60) (V c main_v48) (V c main_arg16) (V c main_arg18)
    (fun q => V c main_v61 (ix2 (0 : Fin 1) q))

/-- The printed index maps over the ten points: the two row-blocked inputs and the output sit at block (t, 0), every
    other window at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0) :=
  (by decide +kernel : ∀ t : Fin grid2.N, _)

set_option maxHeartbeats 4000000 in
/-- What point t writes back is block t of the layer. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S128x64) hz,
    View.ld_unit_zero (S := S1x64) hz]
  obtain ⟨e00, e01, e10, e11, e50, e51, ⟨e20, e21⟩, ⟨e30, e31⟩, ⟨e40, e41⟩⟩ := idx_facts t
  funext j
  obtain ⟨p, q, rfl⟩ : ∃ (p : Fin 5000) (q : Fin 64), j = ix2 p q := ⟨j 0, j 1, eq_ix2 j⟩
  refine (Cert.KernelIdeal.Body.pay2_apply (iblk2 V c 0 t) (iblk2 V c 1 t) (iblk2 V c 2 t) (iblk2 V c 4 t) (iblk2 V c 3 t)
    p q).trans ?_
  -- the array index of entry (p, q) of block t: row 5000·t + p, column q
  let E : S50000x64.Idx := ((cfg2.win 5).blk t).view.emb (ix2 p q)
  have hE0 : (E 0).val = t.val * 5000 + p.val := by
    show win2_5.index t (0 : Fin 2) * 5000 + 1 * p.val = _
    rw [e50]; omega
  have hE1 : E 1 = q := Fin.ext (by
    show win2_5.index t (1 : Fin 2) * 64 + 1 * q.val = q.val
    rw [e51]; omega)
  show _ = lin (fun k => V c main_v60 (ix2 (E 0) k)) (fun k => V c main_v48 (ix2 (E 0) k))
      (fun k => V c main_arg16 (ix2 k (E 1))) (fun k => V c main_arg18 (ix2 k (E 1))) (V c main_v61 (ix2 (0 : Fin 1) (E 1)))
  rw [hE1]
  have a0 : (fun k : Fin 128 => iblk2 V c 0 t (ix2 p k)) = fun k => V c main_v60 (ix2 (E 0) k) :=
    funext fun k => congrArg (V c main_v60) (funext fun a => Fin.ext (by
      match a with
      | ⟨0, _⟩ => show win2_0.index t (0 : Fin 2) * 5000 + 1 * p.val = (E 0).val; rw [hE0, e00]; omega
      | ⟨1, _⟩ => show win2_0.index t (1 : Fin 2) * 128 + 1 * k.val = k.val; rw [e01]; omega))
  have a1 : (fun k : Fin 128 => iblk2 V c 1 t (ix2 p k)) = fun k => V c main_v48 (ix2 (E 0) k) :=
    funext fun k => congrArg (V c main_v48) (funext fun a => Fin.ext (by
      match a with
      | ⟨0, _⟩ => show win2_1.index t (0 : Fin 2) * 5000 + 1 * p.val = (E 0).val; rw [hE0, e10]; omega
      | ⟨1, _⟩ => show win2_1.index t (1 : Fin 2) * 128 + 1 * k.val = k.val; rw [e11]; omega))
  have a2 : (fun k : Fin 128 => iblk2 V c 2 t (ix2 k q)) = fun k => V c main_arg16 (ix2 k q) :=
    funext fun k => congrArg (V c main_arg16) (funext fun a => Fin.ext (by
      match a with
      | ⟨0, _⟩ => show win2_2.index t (0 : Fin 2) * 128 + 1 * k.val = k.val; rw [e20]; omega
      | ⟨1, _⟩ => show win2_2.index t (1 : Fin 2) * 64 + 1 * q.val = q.val; rw [e21]; omega))
  have a4 : (fun k : Fin 128 => iblk2 V c 4 t (ix2 k q)) = fun k => V c main_arg18 (ix2 k q) :=
    funext fun k => congrArg (V c main_arg18) (funext fun a => Fin.ext (by
      match a with
      | ⟨0, _⟩ => show win2_4.index t (0 : Fin 2) * 128 + 1 * k.val = k.val; rw [e40]; omega
      | ⟨1, _⟩ => show win2_4.index t (1 : Fin 2) * 64 + 1 * q.val = q.val; rw [e41]; omega))
  have a3 : iblk2 V c 3 t (ix2 (0 : Fin 1) q) = V c main_v61 (ix2 (0 : Fin 1) q) :=
    congrArg (V c main_v61) (funext fun a => Fin.ext (by
      match a with
      | ⟨0, _⟩ => show win2_3.index t (0 : Fin 2) * 1 + 1 * 0 = 0; rw [e30]
      | ⟨1, _⟩ => show win2_3.index t (1 : Fin 2) * 64 + 1 * q.val = q.val; rw [e31]; omega))
  rw [a0, a1, a2, a4, a3]

/-- An index of the array is in point t's block iff each coordinate is in the block's range on its axis. -/
theorem mem_blk (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v62).slice (win2_5.rect t)).set ↔ _
  rw [View.set_slice_whole, Rect.mem_set_unit]
  exact Iff.rfl

/-- Every row is in the block of the point that is the row's number divided by 5000. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have ht : (i 0).val / 5000 < 10 := by omega
  obtain ⟨-, -, -, -, e50, e51, -⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [e51]; omega

/-- The array after the region is the layer of the arrays as the region found them. -/
theorem final (c : Dev nD) : (dat2 (F := Ideal) V c).arrAt 5 cfg2.N = G V c :=
  (dat2 (F := Ideal) V c).arrAt_eq_of_cover 5 (G V c) (fun t _ => flushed_eq V c t) cover

end Cert.KernelIdeal.Region2

end
-- ==== Proof.KernelRun.lean ====
/-
  The idealized kernel's whole run, with its result named.

  @main is six segments: a stretch of host operations before each of the three layers' grids. Every weakly fair
  execution runs them in order and ends with every buffer at the contents the segments compose to; read at the result
  buffer this names the kernel's result, and read at an argument it gives the argument back unchanged.
-/
import proofs.«172756_j52441550684206_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the composed contents
    of the six segments and every argument as launched. -/
theorem run_out : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.Whole

end
-- ==== Proof.Layer2.lean ====
/-
  The kernel program's result as a function of the arguments.

  Between the second and the third grid the host computes the neighbour mean of the second layer's output — sources,
  destinations and reciprocal column still as first computed (CarryB.lean) — and re-lays the last bias as a row
  (Stretch2.lean); the third grid leaves the linear layer of those arrays (Region2.lean). Read back through the three
  stretches and the two earlier grids, the result array holds the three layers of Graph.lean of the arguments.
-/
import proofs.«172756_j52441550684206_1_alg».proof.Proof.CarryB
import proofs.«172756_j52441550684206_1_alg».proof.Proof.Layer1
import proofs.«172756_j52441550684206_1_alg».proof.Proof.Stretch2
import proofs.«172756_j52441550684206_1_alg».proof.Proof.Region2
import proofs.«172756_j52441550684206_1_alg».proof.Proof.KernelRun

set_option maxRecDepth 16384

noncomputable section

namespace Cert.KernelIdeal.Whole

open Cert.KernelIdeal Cert.KernelIdeal.Gen Cert.Sage
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

/-- The three layers of the arguments. -/
def result : FVec Ideal S50000x64 .f32 :=
  net (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))

theorem lay2 : Region2.G (V5 m ρ) c = result m c := by
  unfold Region2.G
  rw [s2_v60, s2_v48, s2_arg16, s2_arg18, s2_v61, w4_v1, w4_v3, w4_v12, w4_v48, w4_arg16, w4_arg17, w4_arg18, meanOf_eq]
  simp only [row_eq_vec]
  rfl

/-- After the third grid the result array holds the three layers of the arguments. -/
theorem w6_v62 : W6 m ρ c (Proc.devRef .tc main_v62) = result m c :=
  (W6_arr m ρ c 5).trans ((Region2.final (V5 m ρ) c).trans (lay2 m ρ c))

end Cert.KernelIdeal.Whole

end
-- ==== Proof.RefValue.lean ====
/-
  The reference's result is the three layers of Graph.lean.

  The reference program's run ends with its result at one long composed term of the argument arrays. That term is,
  read from the inside out, three times: the neighbour mean (sums divided by the clamped degree) of the current
  features, then the host's layer of that mean and the current features. Each host layer is the layer of Spec.lean
  (HostLayers.lean) and each mean agrees with the kernel program's spelling (`mean_agree`), so the term is `net`.
-/
import proofs.«172756_j52441550684206_1_alg».proof.Proof.Gen.ReferenceIdeal.Run
import proofs.«172756_j52441550684206_1_alg».proof.Proof.Graph

set_option maxRecDepth 16384

noncomputable section

namespace Cert.Sage.Ref

open Cert.ReferenceIdeal Cert.ReferenceIdeal.Gen Cert.Sage Idealize.ShloMosaic Idealize.ShloMosaic.ValueIdx Idealize.ShloMosaic.TcCoe

/-- The neighbour mean as the reference's @main spells it, over the reference's own dimension records. -/
def mean (E : IVec S2x600000 32) (feat : FVec Ideal S50000x128 .f32) : FVec Ideal S50000x128 .f32 :=
  Host.divf (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0
        (shapeCast _ (extractStridedSlice S1x600000 ![1, 0] E slices_S2x600000_S1x600000_1_0) shapeCasts_S1x600000_S600000))
      (Host.gather gather_S50000x128_S600000x1_S600000x128_1_0_n_n_0_1_1128 feat
        (broadcastInDim S600000x1 ![0] bcast_S600000_S600000x1_0
          (select (cmpi .slt (shapeCast _ (extractStridedSlice S1x600000 ![0, 0] E slices_S2x600000_S1x600000_0_0) shapeCasts_S1x600000_S600000)
              (broadcastInDim S600000 ![] bcast_S_S600000 (constantI S_ 32 0#32)))
            (addi (shapeCast _ (extractStridedSlice S1x600000 ![0, 0] E slices_S2x600000_S1x600000_0_0) shapeCasts_S1x600000_S600000)
              (broadcastInDim S600000 ![] bcast_S_S600000 (constantI S_ 32 50000#32)))
            (shapeCast _ (extractStridedSlice S1x600000 ![0, 0] E slices_S2x600000_S1x600000_0_0) shapeCasts_S1x600000_S600000)))))
    (broadcastInDim S50000x128 ![0, 1] bcast_S50000x1_S50000x128_0_1 (broadcastInDim S50000x1 ![0] bcast_S50000_S50000x1_0
      (maximumf (Host.scatterAdd scatter_S50000_S600000x1_S600000_n_0_0_1
          (broadcastInDim S50000 ![] bcast_S_S50000 (constant (F := Ideal) S_ .f32 0x00000000#32))
          (broadcastInDim S600000x1 ![0] bcast_S600000_S600000x1_0
            (shapeCast _ (extractStridedSlice S1x600000 ![1, 0] E slices_S2x600000_S1x600000_1_0) shapeCasts_S1x600000_S600000))
          (broadcastInDim S600000 ![] bcast_S_S600000 (constant (F := Ideal) S_ .f32 0x3F800000#32)))
        (broadcastInDim S50000 ![] bcast_S_S50000 (constant (F := Ideal) S_ .f32 0x3F800000#32)))))

/-- It is the mean of Graph.lean: the two programs' dimension records hold the same numbers. -/
theorem mean_eq_meanDiv (E : IVec S2x600000 32) (feat : FVec Ideal S50000x128 .f32) : mean E feat = meanDiv E feat := rfl

/-- A normalised layer as the reference's @main spells it. -/
def bn (agg feat : FVec Ideal S50000x128 .f32) (Wl : FVec Ideal S128x128 .f32) (b : FVec Ideal S128 .f32)
    (Wr : FVec Ideal S128x128 .f32) (γ β μ v : FVec Ideal S128 .f32) : FVec Ideal S50000x128 .f32 :=
  maximumf (addf (mulf (subf (addf (addf (Host.dotGeneral dot_S50000x128_S128x128_S50000x128_1_0_0_1_n_n none agg Wl)
      (broadcastInDim S50000x128 ![0, 1] bcast_S1x128_S50000x128_0_1 (broadcastInDim S1x128 ![1] bcast_S128_S1x128_1 b)))
      (Host.dotGeneral dot_S50000x128_S128x128_S50000x128_1_0_0_1_n_n none feat Wr))
      (broadcastInDim S50000x128 ![0, 1] bcast_S1x128_S50000x128_0_1 (broadcastInDim S1x128 ![1] bcast_S128_S1x128_1 μ)))
      (broadcastInDim S50000x128 ![0, 1] bcast_S1x128_S50000x128_0_1 (broadcastInDim S1x128 ![1] bcast_S128_S1x128_1
        (mulf γ (Host.rsqrt (addf v (broadcastInDim S128 ![] bcast_S_S128 (constant (F := Ideal) S_ .f32 0x3727C5AC#32))))))))
      (broadcastInDim S50000x128 ![0, 1] bcast_S1x128_S50000x128_0_1 (broadcastInDim S1x128 ![1] bcast_S128_S1x128_1 β)))
    (broadcastInDim S50000x128 ![] bcast_S_S50000x128 (constant (F := Ideal) S_ .f32 0x00000000#32))

theorem bn_eq (agg feat : FVec Ideal S50000x128 .f32) (Wl : FVec Ideal S128x128 .f32) (b : FVec Ideal S128 .f32)
    (Wr : FVec Ideal S128x128 .f32) (γ β μ v : FVec Ideal S128 .f32) :
    bn agg feat Wl b Wr γ β μ v = bnLayer agg feat Wl Wr (vec b) (vec γ) (vec β) (vec μ) (vec v) :=
  hostBn_eq dot_S50000x128_S128x128_S50000x128_1_0_0_1_n_n rfl bcast_S128_S1x128_1 bcast_S1x128_S50000x128_0_1
    bcast_S_S128 bcast_S_S50000x128 agg feat Wl Wr b γ β μ v

/-- The last layer as the reference's @main spells it. -/
def plain (agg feat : FVec Ideal S50000x128 .f32) (Wl : FVec Ideal S128x64 .f32) (b : FVec Ideal S64 .f32)
    (Wr : FVec Ideal S128x64 .f32) : FVec Ideal S50000x64 .f32 :=
  addf (addf (Host.dotGeneral dot_S50000x128_S128x64_S50000x64_1_0_0_1_n_n none agg Wl)
      (broadcastInDim S50000x64 ![0, 1] bcast_S1x64_S50000x64_0_1 (broadcastInDim S1x64 ![1] bcast_S64_S1x64_1 b)))
    (Host.dotGeneral dot_S50000x128_S128x64_S50000x64_1_0_0_1_n_n none feat Wr)

theorem plain_eq (agg feat : FVec Ideal S50000x128 .f32) (Wl : FVec Ideal S128x64 .f32) (b : FVec Ideal S64 .f32)
    (Wr : FVec Ideal S128x64 .f32) : plain agg feat Wl b Wr = plainLayer agg feat Wl Wr (vec b) :=
  hostPlain_eq dot_S50000x128_S128x64_S50000x64_1_0_0_1_n_n rfl bcast_S64_S1x64_1 bcast_S1x64_S50000x64_0_1 agg feat Wl Wr b

/-- The reference's result term is the three layers. -/
theorem result_eq (m : (ℓ : Loc nD τ sig) → Buf (Elt Ideal) ℓ) (c : Dev nD) :
    Cert.ReferenceIdeal.Value.res_main_v106 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17))
          (m ((c.tc : Thread nD τ).loc main_arg18)) := by
  have h : Cert.ReferenceIdeal.Value.res_main_v106 (F := Ideal) m c
      = plain (mean (m ((c.tc : Thread nD τ).loc main_arg1))
            (bn (mean (m ((c.tc : Thread nD τ).loc main_arg1))
                (bn (mean (m ((c.tc : Thread nD τ).loc main_arg1)) (m ((c.tc : Thread nD τ).loc main_arg0)))
                  (m ((c.tc : Thread nD τ).loc main_arg0)) (m ((c.tc : Thread nD τ).loc main_arg2))
                  (m ((c.tc : Thread nD τ).loc main_arg3)) (m ((c.tc : Thread nD τ).loc main_arg4))
                  (m ((c.tc : Thread nD τ).loc main_arg5)) (m ((c.tc : Thread nD τ).loc main_arg6))
                  (m ((c.tc : Thread nD τ).loc main_arg7)) (m ((c.tc : Thread nD τ).loc main_arg8))))
              (bn (mean (m ((c.tc : Thread nD τ).loc main_arg1)) (m ((c.tc : Thread nD τ).loc main_arg0)))
                (m ((c.tc : Thread nD τ).loc main_arg0)) (m ((c.tc : Thread nD τ).loc main_arg2))
                (m ((c.tc : Thread nD τ).loc main_arg3)) (m ((c.tc : Thread nD τ).loc main_arg4))
                (m ((c.tc : Thread nD τ).loc main_arg5)) (m ((c.tc : Thread nD τ).loc main_arg6))
                (m ((c.tc : Thread nD τ).loc main_arg7)) (m ((c.tc : Thread nD τ).loc main_arg8)))
              (m ((c.tc : Thread nD τ).loc main_arg9)) (m ((c.tc : Thread nD τ).loc main_arg10))
              (m ((c.tc : Thread nD τ).loc main_arg11)) (m ((c.tc : Thread nD τ).loc main_arg12))
              (m ((c.tc : Thread nD τ).loc main_arg13)) (m ((c.tc : Thread nD τ).loc main_arg14))
              (m ((c.tc : Thread nD τ).loc main_arg15))))
          (bn (mean (m ((c.tc : Thread nD τ).loc main_arg1))
              (bn (mean (m ((c.tc : Thread nD τ).loc main_arg1)) (m ((c.tc : Thread nD τ).loc main_arg0)))
                (m ((c.tc : Thread nD τ).loc main_arg0)) (m ((c.tc : Thread nD τ).loc main_arg2))
                (m ((c.tc : Thread nD τ).loc main_arg3)) (m ((c.tc : Thread nD τ).loc main_arg4))
                (m ((c.tc : Thread nD τ).loc main_arg5)) (m ((c.tc : Thread nD τ).loc main_arg6))
                (m ((c.tc : Thread nD τ).loc main_arg7)) (m ((c.tc : Thread nD τ).loc main_arg8))))
            (bn (mean (m ((c.tc : Thread nD τ).loc main_arg1)) (m ((c.tc : Thread nD τ).loc main_arg0)))
              (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8)))
            (m ((c.tc : Thread nD τ).loc main_arg9)) (m ((c.tc : Thread nD τ).loc main_arg10))
            (m ((c.tc : Thread nD τ).loc main_arg11)) (m ((c.tc : Thread nD τ).loc main_arg12))
            (m ((c.tc : Thread nD τ).loc main_arg13)) (m ((c.tc : Thread nD τ).loc main_arg14))
            (m ((c.tc : Thread nD τ).loc main_arg15)))
          (m ((c.tc : Thread nD τ).loc main_arg16)) (m ((c.tc : Thread nD τ).loc main_arg17))
          (m ((c.tc : Thread nD τ).loc main_arg18)) := by
    unfold Cert.ReferenceIdeal.Value.res_main_v106
    rfl
  rw [h]
  simp only [bn_eq, plain_eq, mean_eq_meanDiv, ← mean_agree]
  rfl

end Cert.Sage.Ref

end
-- ==== Proof.lean ====
/-
  The certificate of a three-layer graph convolution: the kernel program against its reference, on the extended reals.

  Both programs compute, layer by layer, for every node the mean of its in-neighbours' features and then a linear
  form of that mean and of the node's own features (first two layers: normalised by per-column statistics and clamped
  at zero). They differ in two places only. The kernel program multiplies the neighbour sums by the reciprocal of the
  clamped in-degree where the reference divides by it: equal, because a degree clamped below by one is not zero. And
  the kernel program adds the two matrix products before the bias where the reference adds the bias in between: equal by
  commutativity and associativity of addition. Neither needs the inputs to be finite.

  The kernel program's three grids each leave one function of the arrays they find (Region0–2.lean over KernelBody.lean),
  composed through the host operations between them (CarryA/B.lean, Layer0–2.lean) from the whole run (KernelRun.lean);
  the reference's run is read back as the same three layers (RefValue.lean over HostLayers.lean, Graph.lean). The
  three frames are the generated ones; the idealization rewrote nothing, so it preserves trivially.
-/
import proofs.«172756_j52441550684206_1_alg».proof.Defs
import proofs.«172756_j52441550684206_1_alg».proof.Proof.Gen.Kernel
import proofs.«172756_j52441550684206_1_alg».proof.Proof.Gen.Kernel.Skeleton
import proofs.«172756_j52441550684206_1_alg».proof.Proof.Gen.Kernel.Launch
import proofs.«172756_j52441550684206_1_alg».proof.Proof.Gen.Kernel.Points
import proofs.«172756_j52441550684206_1_alg».proof.Proof.Gen.Kernel.Frame
import proofs.«172756_j52441550684206_1_alg».proof.Proof.Gen.KernelIdeal
import proofs.«172756_j52441550684206_1_alg».proof.Proof.Gen.KernelIdeal.Skeleton
import proofs.«172756_j52441550684206_1_alg».proof.Proof.Gen.KernelIdeal.Launch
import proofs.«172756_j52441550684206_1_alg».proof.Proof.Gen.KernelIdeal.Points
import proofs.«172756_j52441550684206_1_alg».proof.Proof.Gen.KernelIdeal.Frame
import proofs.«172756_j52441550684206_1_alg».proof.Proof.Gen.ReferenceIdeal
import proofs.«172756_j52441550684206_1_alg».proof.Proof.Gen.Pre_finite_inputs
import proofs.«172756_j52441550684206_1_alg».proof.Proof.Gen.ReferenceIdeal.Run
import proofs.«172756_j52441550684206_1_alg».proof.Proof.Layer2
import proofs.«172756_j52441550684206_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the three layers of the (agreeing) arguments in their result arrays. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun r h c => ⟨((h c).1).trans (Cert.KernelIdeal.Whole.w6_v62 m ρ c), (h c).2⟩)
      (Cert.KernelIdeal.Whole.run_out (F := Ideal) m ρ)
  · refine (θ_run Cert.ReferenceIdeal.defs _ _).mono (fun r h c => ⟨((h c).1).trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.Sage.Ref.result_eq, h0, h1, h2, h3, h4, h5, h6, h7, h8, h9, h10, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
